-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128x128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S100000x384 : Shape := ⟨2, ![100000, 384]⟩

abbrev nBuf : Space → Nat
  | .hbm => 52
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S100000x384, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S128x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S128x128, .f32⟩
  | .local _ .vmem, ⟨23, _⟩ => ⟨S4000x128, .f32⟩
  | .local _ .vmem, ⟨24, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  broadcasts_S4000x1_S4000x128 : S4000x1.Broadcasts S4000x128
  bcast_S_S100000x128 : S_.BroadcastsInDim S100000x128 (![] : Fin 0 → Fin S100000x128.rank)
  shapeCasts_S4000x128_S4000x128 : S4000x128.ShapeCasts S4000x128
  concatenates_S100000x128_S100000x128_S100000x128_S100000x384_d1 : Shape.Concatenates [S100000x128, S100000x128, S100000x128] S100000x384 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19_0) S4000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_1) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x384 : Shape := ⟨2, ![100000, 384]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x384, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.K.Hop0.lean ====
/-
  Hop 0 of the three-hop layer, as one pipelined region over 25 row blocks of 4000 nodes.
  At a grid point t the body reads the feature rows of block t (4000 x 128), the per-node scale of
  block t (4000 x 1) and the whole weight matrix (128 x 128); it leaves in the first output block the
  matrix product of the feature rows with the weights, and in the second output block the feature rows
  with every row multiplied by that node's scale. Stated here, for any contents V of the buffers when
  the region is entered: what each staging buffer holds before and after the body at every point, the
  body's triple, and the obligation the pipeline asks of the body at every point.
-/
import proofs.«115471_j4492535791994_1_alg».proof.Proof.Gen.Kernel.Launch
import proofs.«115471_j4492535791994_1_alg».proof.Proof.Gen.Kernel.Skeleton
import proofs.«115471_j4492535791994_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hop0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window w at point t, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the block was fetched
    at that point or is still there from an earlier one (the weights: their block index never moves). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 4000 x 128 block, the whole 4000 x 1 column block, the whole 128 x 128 matrix: the three
    rectangles the body loads and stores through. -/
abbrev rX : Rect S4000x128 := Rect.unit (s := S4000x128) ![0, 0] S4000x128.size inb_S4000x128_S4000x128_0_0
abbrev rN : Rect S4000x1 := Rect.unit (s := S4000x1) ![0, 0] S4000x1.size inb_S4000x1_S4000x1_0_0
abbrev rW : Rect S128x128 := Rect.unit (s := S128x128) ![0, 0] S128x128.size inb_S128x128_S128x128_0_0

/-- What the body leaves in the first output's buffer: the product of the feature block with the weights. -/
def out3 (x0 : Vec F S4000x128 .f32) (x2 : Vec F S128x128 .f32) : Vec F S4000x128 .f32 :=
  View.canon [⟨rX, k0_pay1 (View.ld x0 rX) (View.ld x2 rW)⟩]
/-- What it leaves in the second output's buffer: the feature block with each row scaled. -/
def out4 (x0 : Vec F S4000x128 .f32) (x1 : Vec F S4000x1 .f32) : Vec F S4000x128 .f32 :=
  View.canon [⟨rX, k0_pay2 (View.ld x0 rX) (View.ld x1 rN)⟩]

/-- One store through the whole rectangle covers the buffer. -/
theorem cover (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y

set_option maxHeartbeats 1000000 in
/-- The body on whole staging buffers: the three inputs are read and left as they were, each output ends
    at its function of the inputs. -/
theorem sound_kernel (c : Dev nD) (E : Set ℕ) (i : grid0.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole) (arg5 : Memref sig .tc .vmem S4000x128 .f32) (harg5 : arg5.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x2) ∗ owns (c : Thread nD τ) arg5 fullShare (out4 x0 x1)) -∗ K ⟨⟩))
      ⊢ wp frame (wpE (defs₀ (F := F)) Variants.none c none) E (cc0__hop_kernel_two_out i arg1 harg1 arg2 harg2 arg3 harg3 arg4 harg4 arg5 harg5) K := by
  simp only [cc0__hop_kernel_two_out_eq_skeleton]; unfold cc0__hop_kernel_two_out_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover _)
  iexists _; isplitr
  swap; · iexact H4
  ipureintro
  exact View.read_writes_eq_canon _ _ _ (cover _)

/-- The proof data of this pipeline on core c: the arrays as the region finds them; after the body at point t
    each input's buffer still at its block, each output's at its function of the input blocks. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 2 t)
    | ⟨4, _⟩ => out4 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out3 (iblk V c 0 t) (iblk V c 2 t) := by dsimp only [dat]
theorem after_4 (c : Dev nD) (t : Fin cfg0.N) : (dat V c).after 4 t = out4 (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point t, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the body's triple applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation (c : Dev nD) : BodyObligation (dat (F := F) V c) (defs₀ (F := F)) Variants.none () Set.univ := fun t => by
  rw [bigSep_W0, bigSep_W0]
  exact sound_body V c t

end

end Cert.Kernel.Hop0

end
-- ==== Proof.K.Hop1.lean ====
/-
  Hop 1 of the three-hop layer, as one pipelined region over 25 row blocks of 4000 nodes.
  At a grid point t the body reads the aggregated rows of block t (4000 x 128), the per-node scale of
  block t (4000 x 1) and the whole weight matrix (128 x 128). With h the rows each multiplied by its node's
  scale, it leaves in the first output block the matrix product of h with the weights, and in the second
  output block h with every row multiplied by the scale once more. Stated here, for any contents V of the
  buffers when the region is entered: what each staging buffer holds before and after the body at every
  point, the body's triple, and the obligation the pipeline asks of the body at every point.
-/
import proofs.«115471_j4492535791994_1_alg».proof.Proof.Gen.Kernel.Launch
import proofs.«115471_j4492535791994_1_alg».proof.Proof.Gen.Kernel.Skeleton
import proofs.«115471_j4492535791994_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hop1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window w at point t, read off the window's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the block was fetched
    at that point or is still there from an earlier one (the weights: their block index never moves). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 4000 x 128 block, the whole 4000 x 1 column block, the whole 128 x 128 matrix: the three
    rectangles the body loads and stores through. -/
abbrev rX : Rect S4000x128 := Rect.unit (s := S4000x128) ![0, 0] S4000x128.size inb_S4000x128_S4000x128_0_0
abbrev rN : Rect S4000x1 := Rect.unit (s := S4000x1) ![0, 0] S4000x1.size inb_S4000x1_S4000x1_0_0
abbrev rW : Rect S128x128 := Rect.unit (s := S128x128) ![0, 0] S128x128.size inb_S128x128_S128x128_0_0

/-- What the body leaves in the first output's buffer: the product of the scaled rows with the weights. -/
def out3 (x0 : Vec F S4000x128 .f32) (x1 : Vec F S4000x1 .f32) (x2 : Vec F S128x128 .f32) : Vec F S4000x128 .f32 :=
  View.canon [⟨rX, k1_pay3 (View.ld x0 rX) (View.ld x1 rN) (View.ld x2 rW)⟩]
/-- What it leaves in the second output's buffer: the rows scaled twice. -/
def out4 (x0 : Vec F S4000x128 .f32) (x1 : Vec F S4000x1 .f32) : Vec F S4000x128 .f32 :=
  View.canon [⟨rX, k1_pay4 (View.ld x0 rX) (View.ld x1 rN)⟩]

/-- One store through the whole rectangle covers the buffer. -/
theorem cover (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y

set_option maxHeartbeats 1000000 in
/-- The body on whole staging buffers: the three inputs are read and left as they were, each output ends
    at its function of the inputs. -/
theorem sound_kernel (c : Dev nD) (E : Set ℕ) (i : grid1.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole) (arg5 : Memref sig .tc .vmem S4000x128 .f32) (harg5 : arg5.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2) ∗ owns (c : Thread nD τ) arg5 fullShare (out4 x0 x1)) -∗ K ⟨⟩))
      ⊢ wp frame (wpE (defs₀ (F := F)) Variants.none c none) E (cc1__hop_kernel_two_out i arg1 harg1 arg2 harg2 arg3 harg3 arg4 harg4 arg5 harg5) K := by
  simp only [cc1__hop_kernel_two_out_eq_skeleton]; unfold cc1__hop_kernel_two_out_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover _)
  iexists _; isplitr
  swap; · iexact H4
  ipureintro
  exact View.read_writes_eq_canon _ _ _ (cover _)

/-- The proof data of this pipeline on core c: the arrays as the region finds them; after the body at point t
    each input's buffer still at its block, each output's at its function of the input blocks. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
    | ⟨4, _⟩ => out4 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out3 (iblk V c 0 t) (iblk V c 1 t) (iblk V c 2 t) := by dsimp only [dat]
theorem after_4 (c : Dev nD) (t : Fin cfg1.N) : (dat V c).after 4 t = out4 (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- What the body is called with at point t, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the body's triple applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation (c : Dev nD) : BodyObligation (dat (F := F) V c) (defs₀ (F := F)) Variants.none () Set.univ := fun t => by
  rw [bigSep_W1, bigSep_W1]
  exact sound_body V c t

end

end Cert.Kernel.Hop1

end
-- ==== Proof.K.Hop2.lean ====
/-
  Hop 2 of the three-hop layer, as one pipelined region over 25 row blocks of 4000 nodes.
  At a grid point t the body reads the aggregated rows of block t (4000 x 128), the per-node scale of
  block t (4000 x 1) and the whole weight matrix (128 x 128), and leaves in the output block the matrix
  product of the rows, each multiplied by its node's scale, with the weights. Stated here, for any contents
  V of the buffers when the region is entered: what each staging buffer holds before and after the body at
  every point, the body's triple, and the obligation the pipeline asks of the body at every point.
-/
import proofs.«115471_j4492535791994_1_alg».proof.Proof.Gen.Kernel.Launch
import proofs.«115471_j4492535791994_1_alg».proof.Proof.Gen.Kernel.Skeleton
import proofs.«115471_j4492535791994_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hop2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window w at point t, read off the window's array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the block was fetched
    at that point or is still there from an earlier one (the weights: their block index never moves). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 4000 x 128 block, the whole 4000 x 1 column block, the whole 128 x 128 matrix: the three
    rectangles the body loads and stores through. -/
abbrev rX : Rect S4000x128 := Rect.unit (s := S4000x128) ![0, 0] S4000x128.size inb_S4000x128_S4000x128_0_0
abbrev rN : Rect S4000x1 := Rect.unit (s := S4000x1) ![0, 0] S4000x1.size inb_S4000x1_S4000x1_0_0
abbrev rW : Rect S128x128 := Rect.unit (s := S128x128) ![0, 0] S128x128.size inb_S128x128_S128x128_0_0

/-- What the body leaves in the output's buffer: the product of the scaled rows with the weights. -/
def out3 (x0 : Vec F S4000x128 .f32) (x1 : Vec F S4000x1 .f32) (x2 : Vec F S128x128 .f32) : Vec F S4000x128 .f32 :=
  View.canon [⟨rX, k2_pay1 (View.ld x0 rX) (View.ld x1 rN) (View.ld x2 rW)⟩]

/-- One store through the whole rectangle covers the buffer. -/
theorem cover (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y

set_option maxHeartbeats 1000000 in
/-- The body on whole staging buffers: the three inputs are read and left as they were, each output ends
    at its function of the inputs. -/
theorem sound_kernel (c : Dev nD) (E : Set ℕ) (i : grid2.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc2__hop_kernel_final i arg1 harg1 arg2 harg2 arg3 harg3 arg4 harg4) K := by
  simp only [cc2__hop_kernel_final_eq_skeleton]; unfold cc2__hop_kernel_final_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The proof data of this pipeline on core c: the arrays as the region finds them; after the body at point t
    each input's buffer still at its block, each output's at its function of the input blocks. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out3 (iblk V c 0 t) (iblk V c 1 t) (iblk V c 2 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-- What the body is called with at point t, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so the body's triple applies. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation (c : Dev nD) : BodyObligation (dat (F := F) V c) (defs₀ (F := F)) Variants.none () Set.univ := fun t => by
  rw [bigSep_W2, bigSep_W2]
  exact sound_body V c t

end

end Cert.Kernel.Hop2

end
-- ==== Proof.K.Run.lean ====
/-
  The whole program as a run of nine segments: three stretches of host operations (the in-degree count by a
  scatter-add of ones, its clamp below by 1, the power -1/2 that makes the per-node scale), hop 0, the host
  gather of source rows and scatter-add into target rows, hop 1, the same gather and scatter-add again, hop 2,
  and the host concatenation of the three hop outputs side by side. The contents of every buffer at each
  boundary between two segments are written as a fold from the launch memory: a host stretch applies its
  operations in order, a hop replaces its two (or one) output arrays by what its 25 write-backs leave and
  touches nothing else. The run: every weakly fair execution ends, faulting nowhere, with every buffer that
  outlives the hops at the last fold. From it: the six argument arrays end as launched.
-/
import proofs.«115471_j4492535791994_1_alg».proof.Proof.K.Hop0
import proofs.«115471_j4492535791994_1_alg».proof.Proof.K.Hop1
import proofs.«115471_j4492535791994_1_alg».proof.Proof.K.Hop2
import proofs.«115471_j4492535791994_1_alg».proof.Proof.Gen.Kernel.Regions

set_option maxRecDepth 16384

noncomputable section

namespace Cert.Kernel.HopRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the degree count. -/
abbrev W1 : Dev nD → Valuation τ sig (Elt F) := fun c => StableHlo.after hostOps0 (W0 m ρ c)
/-- After the clamp. -/
abbrev W2 : Dev nD → Valuation τ sig (Elt F) := fun c => StableHlo.after hostOps0_1 (W1 m ρ c)
/-- After the power: hop 0 is entered from here. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After hop 0: its arrays at what its write-backs leave, everything else as entered. -/
def W4 (c : Dev nD) : Valuation τ sig (Elt F) :=
  Pipeline.withArrays spec0 c (W3 m ρ c) fun w => (Hop0.dat (V3 m ρ) c).arrAt w cfg0.N
theorem W4_arr (c : Dev nD) (w : Fin cfg0.W) :
    W4 m ρ c (Proc.devRef .tc (Pipeline.arrRef spec0 w)) = (Hop0.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (Hop0.dat (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the first gather and scatter-add: hop 1 is entered from here. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After hop 1. -/
def W6 (c : Dev nD) : Valuation τ sig (Elt F) :=
  Pipeline.withArrays spec1 c (W5 m ρ c) fun w => (Hop1.dat (V5 m ρ) c).arrAt w cfg1.N
theorem W6_arr (c : Dev nD) (w : Fin cfg1.W) :
    W6 m ρ c (Proc.devRef .tc (Pipeline.arrRef spec1 w)) = (Hop1.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Hop1.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the second gather and scatter-add: hop 2 is entered from here. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- After hop 2. -/
def W8 (c : Dev nD) : Valuation τ sig (Elt F) :=
  Pipeline.withArrays spec2 c (W7 m ρ c) fun w => (Hop2.dat (V7 m ρ) c).arrAt w cfg2.N
theorem W8_arr (c : Dev nD) (w : Fin cfg2.W) :
    W8 m ρ c (Proc.devRef .tc (Pipeline.arrRef spec2 w)) = (Hop2.dat (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (Hop2.dat (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the concatenation: the end. -/
abbrev W9 : Dev nD → Valuation τ sig (Elt F) := fun c => StableHlo.after hostOps3 (W8 m ρ c)

/-! ## A host stretch leaves alone what it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h

/-- From the launch to hop 0's entry nothing that the three first stretches do not write changes. -/
theorem W3_launch (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (W3_of m ρ c r h2).trans ((W2_of m ρ c r h1).trans ((W1_of m ρ c r h0).trans rfl))

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := (W4_arr m ρ c 0).trans (((Hop0.dat (V3 m ρ) c).arrAt_in 0 rfl _).trans (Hop0.A_eq (V3 m ρ) c 0))
    _ = m ((c : Thread nD τ).loc main_arg0) := W3_launch m ρ c main_arg0 (by decide) (by decide) (by decide)
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := (W4_arr m ρ c 2).trans (((Hop0.dat (V3 m ρ) c).arrAt_in 2 rfl _).trans (Hop0.A_eq (V3 m ρ) c 2))
    _ = m ((c : Thread nD τ).loc main_arg1) := W3_launch m ρ c main_arg1 (by decide) (by decide) (by decide)
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := (W6_arr m ρ c 2).trans (((Hop1.dat (V5 m ρ) c).arrAt_in 2 rfl _).trans (Hop1.A_eq (V5 m ρ) c 2))
    _ = W4 m ρ c (Proc.devRef .tc main_arg2) := W5_of m ρ c main_arg2 (by decide)
    _ = W3 m ρ c (Proc.devRef .tc main_arg2) := W4_of_ne m ρ c main_arg2 (by decide)
    _ = m ((c : Thread nD τ).loc main_arg2) := W3_launch m ρ c main_arg2 (by decide) (by decide) (by decide)
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := (W8_arr m ρ c 2).trans (((Hop2.dat (V7 m ρ) c).arrAt_in 2 rfl _).trans (Hop2.A_eq (V7 m ρ) c 2))
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = m ((c : Thread nD τ).loc main_arg3) := W3_launch m ρ c main_arg3 (by decide) (by decide) (by decide)
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = m ((c : Thread nD τ).loc main_arg4) := W3_launch m ρ c main_arg4 (by decide) (by decide) (by decide)
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = m ((c : Thread nD τ).loc main_arg5) := W3_launch m ρ c main_arg5 (by decide) (by decide) (by decide)

/-! ## The proof data of the three hops, and what rides beside the buffers -/

abbrev adm : (p : Fin 3) → (pcfgs (F := F) p).Adm := fun p => (cfgs p).toPCfg_adm
/-- Each hop's proof data at the contents the hop is entered from. -/
def pdats : (p : Fin 3) → (c : Dev nD) → Dat τ (Elt F) Unit ℕ (UR sig nD τ) ℕ (Pipeline.pin (pcfgs (F := F)) adm p) c
  | ⟨0, _⟩ => fun c => Hop0.dat (V3 m ρ) c
  | ⟨1, _⟩ => fun c => Hop1.dat (V5 m ρ) c
  | ⟨2, _⟩ => fun c => Hop2.dat (V7 m ρ) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer at the last fold, the register at some state. -/
abbrev Tₙ (c : Dev nD) : sProp 𝕄 := iprop(StableHlo.held (c : Thread nD τ) (Pipeline.ucRefs τ sig) (W9 m ρ c) ∗ ∃ r, prngReg c r)

/-! ## The hops as segments -/

set_option backward.isDefEq.respectTransparency.types false in
/-- Hop 0 over the thread state: entered from every buffer at W3, left at W4. Its arrays are split out of
    the buffers at entry and put back at their final contents at exit; the register goes into the
    pipeline's invariant and comes back; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Hop0.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Hop 1 over the thread state: entered from every buffer at W5, left at W6. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Hop1.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Hop 2 over the thread state: entered from every buffer at W7, left at W8. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Hop2.body_obligation (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The nine segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

set_option backward.isDefEq.respectTransparency.types false in
/-- THE RUN. From any memory with zero counters every weakly fair execution of the program terminates,
    nothing faulting, and in the final state every buffer that outlives the hops holds the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

end Cert.Kernel.HopRun

end
-- ==== Proof.KI.Hop0.lean ====
/-
  Hop 0 of the three-hop layer, as one pipelined region over 25 row blocks of 4000 nodes.
  At a grid point t the body reads the feature rows of block t (4000 x 128), the per-node scale of
  block t (4000 x 1) and the whole weight matrix (128 x 128); it leaves in the first output block the
  matrix product of the feature rows with the weights, and in the second output block the feature rows
  with every row multiplied by that node's scale. Stated here, for any contents V of the buffers when
  the region is entered: what each staging buffer holds before and after the body at every point, the
  body's triple, and the obligation the pipeline asks of the body at every point.
-/
import proofs.«115471_j4492535791994_1_alg».proof.Proof.Gen.KernelIdeal.Launch
import proofs.«115471_j4492535791994_1_alg».proof.Proof.Gen.KernelIdeal.Skeleton
import proofs.«115471_j4492535791994_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hop0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window w at point t, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the block was fetched
    at that point or is still there from an earlier one (the weights: their block index never moves). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 4000 x 128 block, the whole 4000 x 1 column block, the whole 128 x 128 matrix: the three
    rectangles the body loads and stores through. -/
abbrev rX : Rect S4000x128 := Rect.unit (s := S4000x128) ![0, 0] S4000x128.size inb_S4000x128_S4000x128_0_0
abbrev rN : Rect S4000x1 := Rect.unit (s := S4000x1) ![0, 0] S4000x1.size inb_S4000x1_S4000x1_0_0
abbrev rW : Rect S128x128 := Rect.unit (s := S128x128) ![0, 0] S128x128.size inb_S128x128_S128x128_0_0

/-- What the body leaves in the first output's buffer: the product of the feature block with the weights. -/
def out3 (x0 : Vec F S4000x128 .f32) (x2 : Vec F S128x128 .f32) : Vec F S4000x128 .f32 :=
  View.canon [⟨rX, k0_pay1 (View.ld x0 rX) (View.ld x2 rW)⟩]
/-- What it leaves in the second output's buffer: the feature block with each row scaled. -/
def out4 (x0 : Vec F S4000x128 .f32) (x1 : Vec F S4000x1 .f32) : Vec F S4000x128 .f32 :=
  View.canon [⟨rX, k0_pay2 (View.ld x0 rX) (View.ld x1 rN)⟩]

/-- One store through the whole rectangle covers the buffer. -/
theorem cover (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y

set_option maxHeartbeats 1000000 in
/-- The body on whole staging buffers: the three inputs are read and left as they were, each output ends
    at its function of the inputs. -/
theorem sound_kernel (c : Dev nD) (E : Set ℕ) (i : grid0.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole) (arg5 : Memref sig .tc .vmem S4000x128 .f32) (harg5 : arg5.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x2) ∗ owns (c : Thread nD τ) arg5 fullShare (out4 x0 x1)) -∗ K ⟨⟩))
      ⊢ wp frame (wpE (defs₀ (F := F)) Variants.none c none) E (cc0__hop_kernel_two_out i arg1 harg1 arg2 harg2 arg3 harg3 arg4 harg4 arg5 harg5) K := by
  simp only [cc0__hop_kernel_two_out_eq_skeleton]; unfold cc0__hop_kernel_two_out_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover _)
  iexists _; isplitr
  swap; · iexact H4
  ipureintro
  exact View.read_writes_eq_canon _ _ _ (cover _)

/-- The proof data of this pipeline on core c: the arrays as the region finds them; after the body at point t
    each input's buffer still at its block, each output's at its function of the input blocks. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 2 t)
    | ⟨4, _⟩ => out4 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out3 (iblk V c 0 t) (iblk V c 2 t) := by dsimp only [dat]
theorem after_4 (c : Dev nD) (t : Fin cfg0.N) : (dat V c).after 4 t = out4 (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point t, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the body's triple applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation (c : Dev nD) : BodyObligation (dat (F := F) V c) (defs₀ (F := F)) Variants.none () Set.univ := fun t => by
  rw [bigSep_W0, bigSep_W0]
  exact sound_body V c t

end

end Cert.KernelIdeal.Hop0

end
-- ==== Proof.KI.Hop1.lean ====
/-
  Hop 1 of the three-hop layer, as one pipelined region over 25 row blocks of 4000 nodes.
  At a grid point t the body reads the aggregated rows of block t (4000 x 128), the per-node scale of
  block t (4000 x 1) and the whole weight matrix (128 x 128). With h the rows each multiplied by its node's
  scale, it leaves in the first output block the matrix product of h with the weights, and in the second
  output block h with every row multiplied by the scale once more. Stated here, for any contents V of the
  buffers when the region is entered: what each staging buffer holds before and after the body at every
  point, the body's triple, and the obligation the pipeline asks of the body at every point.
-/
import proofs.«115471_j4492535791994_1_alg».proof.Proof.Gen.KernelIdeal.Launch
import proofs.«115471_j4492535791994_1_alg».proof.Proof.Gen.KernelIdeal.Skeleton
import proofs.«115471_j4492535791994_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hop1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window w at point t, read off the window's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the block was fetched
    at that point or is still there from an earlier one (the weights: their block index never moves). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 4000 x 128 block, the whole 4000 x 1 column block, the whole 128 x 128 matrix: the three
    rectangles the body loads and stores through. -/
abbrev rX : Rect S4000x128 := Rect.unit (s := S4000x128) ![0, 0] S4000x128.size inb_S4000x128_S4000x128_0_0
abbrev rN : Rect S4000x1 := Rect.unit (s := S4000x1) ![0, 0] S4000x1.size inb_S4000x1_S4000x1_0_0
abbrev rW : Rect S128x128 := Rect.unit (s := S128x128) ![0, 0] S128x128.size inb_S128x128_S128x128_0_0

/-- What the body leaves in the first output's buffer: the product of the scaled rows with the weights. -/
def out3 (x0 : Vec F S4000x128 .f32) (x1 : Vec F S4000x1 .f32) (x2 : Vec F S128x128 .f32) : Vec F S4000x128 .f32 :=
  View.canon [⟨rX, k1_pay3 (View.ld x0 rX) (View.ld x1 rN) (View.ld x2 rW)⟩]
/-- What it leaves in the second output's buffer: the rows scaled twice. -/
def out4 (x0 : Vec F S4000x128 .f32) (x1 : Vec F S4000x1 .f32) : Vec F S4000x128 .f32 :=
  View.canon [⟨rX, k1_pay4 (View.ld x0 rX) (View.ld x1 rN)⟩]

/-- One store through the whole rectangle covers the buffer. -/
theorem cover (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y

set_option maxHeartbeats 1000000 in
/-- The body on whole staging buffers: the three inputs are read and left as they were, each output ends
    at its function of the inputs. -/
theorem sound_kernel (c : Dev nD) (E : Set ℕ) (i : grid1.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole) (arg5 : Memref sig .tc .vmem S4000x128 .f32) (harg5 : arg5.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2) ∗ owns (c : Thread nD τ) arg5 fullShare (out4 x0 x1)) -∗ K ⟨⟩))
      ⊢ wp frame (wpE (defs₀ (F := F)) Variants.none c none) E (cc1__hop_kernel_two_out i arg1 harg1 arg2 harg2 arg3 harg3 arg4 harg4 arg5 harg5) K := by
  simp only [cc1__hop_kernel_two_out_eq_skeleton]; unfold cc1__hop_kernel_two_out_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover _)
  iexists _; isplitr
  swap; · iexact H4
  ipureintro
  exact View.read_writes_eq_canon _ _ _ (cover _)

/-- The proof data of this pipeline on core c: the arrays as the region finds them; after the body at point t
    each input's buffer still at its block, each output's at its function of the input blocks. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
    | ⟨4, _⟩ => out4 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out3 (iblk V c 0 t) (iblk V c 1 t) (iblk V c 2 t) := by dsimp only [dat]
theorem after_4 (c : Dev nD) (t : Fin cfg1.N) : (dat V c).after 4 t = out4 (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- What the body is called with at point t, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the body's triple applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation (c : Dev nD) : BodyObligation (dat (F := F) V c) (defs₀ (F := F)) Variants.none () Set.univ := fun t => by
  rw [bigSep_W1, bigSep_W1]
  exact sound_body V c t

end

end Cert.KernelIdeal.Hop1

end
-- ==== Proof.KI.Hop2.lean ====
/-
  Hop 2 of the three-hop layer, as one pipelined region over 25 row blocks of 4000 nodes.
  At a grid point t the body reads the aggregated rows of block t (4000 x 128), the per-node scale of
  block t (4000 x 1) and the whole weight matrix (128 x 128), and leaves in the output block the matrix
  product of the rows, each multiplied by its node's scale, with the weights. Stated here, for any contents
  V of the buffers when the region is entered: what each staging buffer holds before and after the body at
  every point, the body's triple, and the obligation the pipeline asks of the body at every point.
-/
import proofs.«115471_j4492535791994_1_alg».proof.Proof.Gen.KernelIdeal.Launch
import proofs.«115471_j4492535791994_1_alg».proof.Proof.Gen.KernelIdeal.Skeleton
import proofs.«115471_j4492535791994_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hop2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window w at point t, read off the window's array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the block was fetched
    at that point or is still there from an earlier one (the weights: their block index never moves). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 4000 x 128 block, the whole 4000 x 1 column block, the whole 128 x 128 matrix: the three
    rectangles the body loads and stores through. -/
abbrev rX : Rect S4000x128 := Rect.unit (s := S4000x128) ![0, 0] S4000x128.size inb_S4000x128_S4000x128_0_0
abbrev rN : Rect S4000x1 := Rect.unit (s := S4000x1) ![0, 0] S4000x1.size inb_S4000x1_S4000x1_0_0
abbrev rW : Rect S128x128 := Rect.unit (s := S128x128) ![0, 0] S128x128.size inb_S128x128_S128x128_0_0

/-- What the body leaves in the output's buffer: the product of the scaled rows with the weights. -/
def out3 (x0 : Vec F S4000x128 .f32) (x1 : Vec F S4000x1 .f32) (x2 : Vec F S128x128 .f32) : Vec F S4000x128 .f32 :=
  View.canon [⟨rX, k2_pay1 (View.ld x0 rX) (View.ld x1 rN) (View.ld x2 rW)⟩]

/-- One store through the whole rectangle covers the buffer. -/
theorem cover (p0 : Vec F S4000x128 .f32) (y : S4000x128.Idx) :
    ∃ pc ∈ ([⟨rX, p0⟩] : List (View.Piece (Elt F) S4000x128 .f32)), y ∈ pc.1.set :=
  View.cover_of_tiled [⟨rX, p0⟩] S4000x128.size (by rfl) y

set_option maxHeartbeats 1000000 in
/-- The body on whole staging buffers: the three inputs are read and left as they were, each output ends
    at its function of the inputs. -/
theorem sound_kernel (c : Dev nD) (E : Set ℕ) (i : grid2.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc2__hop_kernel_final i arg1 harg1 arg2 harg2 arg3 harg3 arg4 harg4) K := by
  simp only [cc2__hop_kernel_final_eq_skeleton]; unfold cc2__hop_kernel_final_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The proof data of this pipeline on core c: the arrays as the region finds them; after the body at point t
    each input's buffer still at its block, each output's at its function of the input blocks. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out3 (iblk V c 0 t) (iblk V c 1 t) (iblk V c 2 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-- What the body is called with at point t, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so the body's triple applies. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation (c : Dev nD) : BodyObligation (dat (F := F) V c) (defs₀ (F := F)) Variants.none () Set.univ := fun t => by
  rw [bigSep_W2, bigSep_W2]
  exact sound_body V c t

end

end Cert.KernelIdeal.Hop2

end
-- ==== Proof.KI.Run.lean ====
/-
  The whole program as a run of nine segments: three stretches of host operations (the in-degree count by a
  scatter-add of ones, its clamp below by 1, the power -1/2 that makes the per-node scale), hop 0, the host
  gather of source rows and scatter-add into target rows, hop 1, the same gather and scatter-add again, hop 2,
  and the host concatenation of the three hop outputs side by side. The contents of every buffer at each
  boundary between two segments are written as a fold from the launch memory: a host stretch applies its
  operations in order, a hop replaces its two (or one) output arrays by what its 25 write-backs leave and
  touches nothing else. The run: every weakly fair execution ends, faulting nowhere, with every buffer that
  outlives the hops at the last fold. From it: the six argument arrays end as launched.
-/
import proofs.«115471_j4492535791994_1_alg».proof.Proof.KI.Hop0
import proofs.«115471_j4492535791994_1_alg».proof.Proof.KI.Hop1
import proofs.«115471_j4492535791994_1_alg».proof.Proof.KI.Hop2
import proofs.«115471_j4492535791994_1_alg».proof.Proof.Gen.KernelIdeal.Regions

set_option maxRecDepth 16384

noncomputable section

namespace Cert.KernelIdeal.HopRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the degree count. -/
abbrev W1 : Dev nD → Valuation τ sig (Elt F) := fun c => StableHlo.after hostOps0 (W0 m ρ c)
/-- After the clamp. -/
abbrev W2 : Dev nD → Valuation τ sig (Elt F) := fun c => StableHlo.after hostOps0_1 (W1 m ρ c)
/-- After the power: hop 0 is entered from here. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After hop 0: its arrays at what its write-backs leave, everything else as entered. -/
def W4 (c : Dev nD) : Valuation τ sig (Elt F) :=
  Pipeline.withArrays spec0 c (W3 m ρ c) fun w => (Hop0.dat (V3 m ρ) c).arrAt w cfg0.N
theorem W4_arr (c : Dev nD) (w : Fin cfg0.W) :
    W4 m ρ c (Proc.devRef .tc (Pipeline.arrRef spec0 w)) = (Hop0.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (Hop0.dat (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the first gather and scatter-add: hop 1 is entered from here. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After hop 1. -/
def W6 (c : Dev nD) : Valuation τ sig (Elt F) :=
  Pipeline.withArrays spec1 c (W5 m ρ c) fun w => (Hop1.dat (V5 m ρ) c).arrAt w cfg1.N
theorem W6_arr (c : Dev nD) (w : Fin cfg1.W) :
    W6 m ρ c (Proc.devRef .tc (Pipeline.arrRef spec1 w)) = (Hop1.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Hop1.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the second gather and scatter-add: hop 2 is entered from here. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- After hop 2. -/
def W8 (c : Dev nD) : Valuation τ sig (Elt F) :=
  Pipeline.withArrays spec2 c (W7 m ρ c) fun w => (Hop2.dat (V7 m ρ) c).arrAt w cfg2.N
theorem W8_arr (c : Dev nD) (w : Fin cfg2.W) :
    W8 m ρ c (Proc.devRef .tc (Pipeline.arrRef spec2 w)) = (Hop2.dat (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (Hop2.dat (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the concatenation: the end. -/
abbrev W9 : Dev nD → Valuation τ sig (Elt F) := fun c => StableHlo.after hostOps3 (W8 m ρ c)

/-! ## A host stretch leaves alone what it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h

/-- From the launch to hop 0's entry nothing that the three first stretches do not write changes. -/
theorem W3_launch (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (W3_of m ρ c r h2).trans ((W2_of m ρ c r h1).trans ((W1_of m ρ c r h0).trans rfl))

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := (W4_arr m ρ c 0).trans (((Hop0.dat (V3 m ρ) c).arrAt_in 0 rfl _).trans (Hop0.A_eq (V3 m ρ) c 0))
    _ = m ((c : Thread nD τ).loc main_arg0) := W3_launch m ρ c main_arg0 (by decide) (by decide) (by decide)
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := (W4_arr m ρ c 2).trans (((Hop0.dat (V3 m ρ) c).arrAt_in 2 rfl _).trans (Hop0.A_eq (V3 m ρ) c 2))
    _ = m ((c : Thread nD τ).loc main_arg1) := W3_launch m ρ c main_arg1 (by decide) (by decide) (by decide)
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := (W6_arr m ρ c 2).trans (((Hop1.dat (V5 m ρ) c).arrAt_in 2 rfl _).trans (Hop1.A_eq (V5 m ρ) c 2))
    _ = W4 m ρ c (Proc.devRef .tc main_arg2) := W5_of m ρ c main_arg2 (by decide)
    _ = W3 m ρ c (Proc.devRef .tc main_arg2) := W4_of_ne m ρ c main_arg2 (by decide)
    _ = m ((c : Thread nD τ).loc main_arg2) := W3_launch m ρ c main_arg2 (by decide) (by decide) (by decide)
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := (W8_arr m ρ c 2).trans (((Hop2.dat (V7 m ρ) c).arrAt_in 2 rfl _).trans (Hop2.A_eq (V7 m ρ) c 2))
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = m ((c : Thread nD τ).loc main_arg3) := W3_launch m ρ c main_arg3 (by decide) (by decide) (by decide)
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = m ((c : Thread nD τ).loc main_arg4) := W3_launch m ρ c main_arg4 (by decide) (by decide) (by decide)
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = m ((c : Thread nD τ).loc main_arg5) := W3_launch m ρ c main_arg5 (by decide) (by decide) (by decide)

/-! ## The proof data of the three hops, and what rides beside the buffers -/

abbrev adm : (p : Fin 3) → (pcfgs (F := F) p).Adm := fun p => (cfgs p).toPCfg_adm
/-- Each hop's proof data at the contents the hop is entered from. -/
def pdats : (p : Fin 3) → (c : Dev nD) → Dat τ (Elt F) Unit ℕ (UR sig nD τ) ℕ (Pipeline.pin (pcfgs (F := F)) adm p) c
  | ⟨0, _⟩ => fun c => Hop0.dat (V3 m ρ) c
  | ⟨1, _⟩ => fun c => Hop1.dat (V5 m ρ) c
  | ⟨2, _⟩ => fun c => Hop2.dat (V7 m ρ) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer at the last fold, the register at some state. -/
abbrev Tₙ (c : Dev nD) : sProp 𝕄 := iprop(StableHlo.held (c : Thread nD τ) (Pipeline.ucRefs τ sig) (W9 m ρ c) ∗ ∃ r, prngReg c r)

/-! ## The hops as segments -/

set_option backward.isDefEq.respectTransparency.types false in
/-- Hop 0 over the thread state: entered from every buffer at W3, left at W4. Its arrays are split out of
    the buffers at entry and put back at their final contents at exit; the register goes into the
    pipeline's invariant and comes back; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Hop0.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Hop 1 over the thread state: entered from every buffer at W5, left at W6. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Hop1.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Hop 2 over the thread state: entered from every buffer at W7, left at W8. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Hop2.body_obligation (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The nine segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

set_option backward.isDefEq.respectTransparency.types false in
/-- THE RUN. From any memory with zero counters every weakly fair execution of the program terminates,
    nothing faulting, and in the final state every buffer that outlives the hops holds the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

end Cert.KernelIdeal.HopRun

end
-- ==== Proof.Spec.lean ====
/-
  The two array functions the three hops are made of, over the literal extents of this layer
  (100000 nodes, 128 features), on the extended reals.

  rowDot X W is the matrix product: entry (r, c) is the sum over k of X (r, k) * W (k, c).
  rowScale X d multiplies every row by that node's scale: entry (r, c) is X (r, c) * d (r, 0), the scale kept
  as a column of 100000 rows.
  A hop's first output is rowDot of its (possibly scaled) rows with the hop's weights; the array handed to the
  neighbour aggregation is rowScale of those rows.
-/
import Idealize.ShloMosaic.PureOps.Ideal
import Idealize.ShloMosaic.Lib.ValueIdx

noncomputable section

namespace Cert.HopSpec

open Idealize.ShloMosaic Idealize.ShloMosaic.ValueIdx

/-- The node-by-feature arrays, the weight matrices, the scale column. -/
abbrev SNodes : Shape := ⟨2, ![100000, 128]⟩
abbrev SWeights : Shape := ⟨2, ![128, 128]⟩
abbrev SColumn : Shape := ⟨2, ![100000, 1]⟩

/-- The matrix product of the node rows with a weight matrix. -/
def rowDot (X : SNodes.Idx → EReal) (W : SWeights.Idx → EReal) : SNodes.Idx → EReal :=
  fun i => ∑ k : Fin 128, X (ix2 (n0 := 100000) (n1 := 128) (i 0) k) * W (ix2 (n0 := 128) (n1 := 128) k (i 1))

/-- Every row multiplied by its node's scale. -/
def rowScale (X : SNodes.Idx → EReal) (d : SColumn.Idx → EReal) : SNodes.Idx → EReal :=
  fun i => X i * d (ix2 (n0 := 100000) (n1 := 1) (i 0) (0 : Fin 1))

theorem rowDot_apply (X : SNodes.Idx → EReal) (W : SWeights.Idx → EReal) (r : Fin 100000) (c : Fin 128) :
    rowDot X W (ix2 r c) = ∑ k : Fin 128, X (ix2 r k) * W (ix2 k c) := rfl

theorem rowScale_apply (X : SNodes.Idx → EReal) (d : SColumn.Idx → EReal) (r : Fin 100000) (c : Fin 128) :
    rowScale X d (ix2 r c) = X (ix2 r c) * d (ix2 r (0 : Fin 1)) := rfl

end Cert.HopSpec

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibLayout.lean ====
/-
  Two layout operations read at an index, for arrays that carry a unit axis: a vector given a trailing unit axis, and a
  column broadcast along its rows. They are what a row reduction kept as a column (`keepdims`) meets on its way back into
  the array it normalises. Stated for any element type and any extents.
-/
import Idealize.ShloMosaic.Lib.ValueIdx
import Idealize.ShloMosaic.Lib.Pipeline.Value
import Idealize.ShloMosaic.Lib.ValueLayout

noncomputable section

namespace Cert.LibLayout

open Idealize.ShloMosaic Idealize.ShloMosaic.ValueIdx

/-- An `[a]` array cast to `[a, 1]` (a reduction's result given back its unit axis) reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout

end
-- ==== Proof.KI.Value0.lean ====
/-
  What hop 0 leaves in its two output arrays, on the extended reals, for any contents V of the buffers when
  the hop is entered: the first output array is the matrix product of the feature array with the weights,
  the second is the feature array with every row multiplied by its node's scale.
  Block t of an output is rows 4000 t .. 4000 t + 3999; the body at point t computes, from rows
  4000 t .. 4000 t + 3999 of the features and of the scale column and from the whole weight matrix, exactly
  those rows of the two array functions; the 25 blocks cover the 100000 rows.
-/
import proofs.«115471_j4492535791994_1_alg».proof.Proof.KI.Hop0
import proofs.«115471_j4492535791994_1_alg».proof.Proof.Spec
import proofs.«115471_j4492535791994_1_alg».proof.Proof.LibPlainDot
import proofs.«115471_j4492535791994_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hop0V

open Idealize.ShloMosaic Idealize.ShloMosaic.TcCoe Idealize.ShloMosaic.ValueIdx Idealize.SL.Sem
open Idealize.ShloMosaic.Pipeline (Dat)
open Cert.KernelIdeal Cert.KernelIdeal.Gen Cert.HopSpec

/-! ## The body's two stored values at an entry -/

/-- The product into a zero accumulator, its operands passed through the narrower float format (the identity on
    the extended reals): entry (p, q) is the sum over k of x (p, k) * w (k, q). -/
theorem product_entry_value (x0 : Vec Ideal S4000x128 .f32) (w : Vec Ideal S128x128 .f32) (p : Fin 4000) (q : Fin 128) :
    k0_pay1 x0 w (ix2 p q) = ∑ k : Fin 128, x0 (ix2 p k) * w (ix2 k q) := by
  unfold k0_pay1
  exact PlainDot.matmul_zero_apply (M := 4000) (K := 128) (N := 128) Facts₀.dot_S4000x128_S128x128_S4000x128_1_0_0_1_n_n_wf none
    (truncf .bf16 x0 Facts₀.bitsLt_bf16_f32) (truncf .bf16 w Facts₀.bitsLt_bf16_f32) p q

/-- The rows scaled: entry (p, q) is x (p, q) * d (p, 0). -/
theorem scaled_entry_value (x0 : Vec Ideal S4000x128 .f32) (x1 : Vec Ideal S4000x1 .f32) (p : Fin 4000) (q : Fin 128) :
    k0_pay2 x0 x1 (ix2 p q) = x0 (ix2 p q) * x1 (ix2 p (0 : Fin 1)) := by
  unfold k0_pay2
  show x0 (ix2 p q) * broadcastTo S4000x128 (shapeCast S4000x1 x1 Facts₀.shapeCasts_S4000x1_S4000x1) Facts₀.broadcasts_S4000x1_S4000x128 (ix2 p q) = _
  rw [Cert.LibLayout.broadcastTo_a1_ab_apply, shapeCast_self]

/-! ## Where a block's entry sits in its array -/

theorem zero_offsets : (![0, 0] : Fin 2 → Nat) = fun _ => 0 := funext fun a => by fin_cases a <;> rfl

/-- The index maps over the grid: the row-blocked windows are at block row t, column block 0; the weights at (0, 0). -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 ∧ t.val < 25 :=
  (by decide +kernel : ∀ t : Fin grid0.N, _)

theorem features_entry (t : Fin cfg0.N) (p : Fin 4000) (k : Fin 128) (h : t.val * 4000 + p.val < 100000) :
    ((cfg0.win 0).blk t).view.emb (ix2 p k) = ix2 (⟨t.val * 4000 + p.val, h⟩ : Fin 100000) k := by
  obtain ⟨e0, e1, -⟩ := block_indices t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega
theorem scale_entry (t : Fin cfg0.N) (p : Fin 4000) (h : t.val * 4000 + p.val < 100000) :
    ((cfg0.win 1).blk t).view.emb (ix2 p (0 : Fin 1)) = ix2 (⟨t.val * 4000 + p.val, h⟩ : Fin 100000) (0 : Fin 1) := by
  obtain ⟨-, -, e2, e3, -⟩ := block_indices t
  funext a; apply Fin.ext
  match a with
  | ⟨0, _⟩ => show win0_1.index t (0 : Fin 2) * 4000 + 1 * p.val = t.val * 4000 + p.val; omega
  | ⟨1, _⟩ => show win0_1.index t (1 : Fin 2) * 1 + 1 * 0 = 0; omega
theorem weights_entry (t : Fin cfg0.N) (k : Fin 128) (q : Fin 128) :
    ((cfg0.win 2).blk t).view.emb (ix2 k q) = ix2 k q := by
  obtain ⟨-, -, -, -, e4, e5, -⟩ := block_indices t
  funext a; apply Fin.ext
  match a with
  | ⟨0, _⟩ => show win0_2.index t (0 : Fin 2) * 128 + 1 * k.val = k.val; omega
  | ⟨1, _⟩ => show win0_2.index t (1 : Fin 2) * 128 + 1 * q.val = q.val; omega
theorem product_entry (t : Fin cfg0.N) (p : Fin 4000) (q : Fin 128) (h : t.val * 4000 + p.val < 100000) :
    ((cfg0.win 3).blk t).view.emb (ix2 p q) = ix2 (⟨t.val * 4000 + p.val, h⟩ : Fin 100000) q := by
  obtain ⟨-, -, -, -, -, -, e6, e7, -⟩ := block_indices t
  funext a; apply Fin.ext
  match a with
  | ⟨0, _⟩ => show win0_3.index t (0 : Fin 2) * 4000 + 1 * p.val = t.val * 4000 + p.val; omega
  | ⟨1, _⟩ => show win0_3.index t (1 : Fin 2) * 128 + 1 * q.val = q.val; omega
theorem scaled_entry (t : Fin cfg0.N) (p : Fin 4000) (q : Fin 128) (h : t.val * 4000 + p.val < 100000) :
    ((cfg0.win 4).blk t).view.emb (ix2 p q) = ix2 (⟨t.val * 4000 + p.val, h⟩ : Fin 100000) q := by
  obtain ⟨-, -, -, -, -, -, -, -, e8, e9, -⟩ := block_indices t
  funext a; apply Fin.ext
  match a with
  | ⟨0, _⟩ => show win0_4.index t (0 : Fin 2) * 4000 + 1 * p.val = t.val * 4000 + p.val; omega
  | ⟨1, _⟩ => show win0_4.index t (1 : Fin 2) * 128 + 1 * q.val = q.val; omega

section
variable (V : (c : Dev nD) → (b : Ref sig .tc) → Buf (Elt Ideal) ((c : Thread nD τ).loc b))

/-! ## What point t writes back -/

/-- Block t of the first output is block t of the matrix product. -/
theorem product_block (c : Dev nD) (t : Fin cfg0.N) :
    (Hop0.dat V c).flushed 3 t = ((cfg0.win 3).blk t).view.read (Elt Ideal) (rowDot (V c main_arg0) (V c main_arg1)) := by
  show (cfg0.win 3).cut (grid0.coords t) ((Hop0.dat V c).after 3 t) = _
  rw [Hop0.after_3]
  unfold Hop0.out3
  rw [View.canon_unit_zero zero_offsets]
  simp only [View.ld_unit_zero (S := S4000x128) zero_offsets, View.ld_unit_zero (S := S128x128) zero_offsets]
  obtain ⟨-, -, -, -, -, -, -, -, -, -, ht⟩ := block_indices t
  funext j
  obtain ⟨p, q, rfl⟩ : ∃ (p : Fin 4000) (q : Fin 128), j = ix2 p q := ⟨j 0, j 1, eq_ix2 (n0 := 4000) (n1 := 128) j⟩
  have hr : t.val * 4000 + p.val < 100000 := by have := p.isLt; omega
  show k0_pay1 (Hop0.iblk V c 0 t) (Hop0.iblk V c 2 t) (ix2 p q)
    = rowDot (V c main_arg0) (V c main_arg1) (((cfg0.win 3).blk t).view.emb (ix2 p q))
  rw [product_entry t p q hr, rowDot_apply]
  refine (product_entry_value (Hop0.iblk V c 0 t) (Hop0.iblk V c 2 t) p q).trans ?_
  refine Finset.sum_congr rfl fun k _ => ?_
  have h0 : Hop0.iblk V c 0 t (ix2 p k) = V c main_arg0 (ix2 (⟨t.val * 4000 + p.val, hr⟩ : Fin 100000) k) := by
    show V c main_arg0 (((cfg0.win 0).blk t).view.emb (ix2 p k)) = _
    rw [features_entry t p k hr]
  have h2 : Hop0.iblk V c 2 t (ix2 k q) = V c main_arg1 (ix2 k q) := by
    show V c main_arg1 (((cfg0.win 2).blk t).view.emb (ix2 k q)) = _
    rw [weights_entry t k q]
  rw [h0, h2]

/-- Block t of the second output is block t of the scaled features. -/
theorem scaled_block (c : Dev nD) (t : Fin cfg0.N) :
    (Hop0.dat V c).flushed 4 t = ((cfg0.win 4).blk t).view.read (Elt Ideal) (rowScale (V c main_arg0) (V c main_v7)) := by
  show (cfg0.win 4).cut (grid0.coords t) ((Hop0.dat V c).after 4 t) = _
  rw [Hop0.after_4]
  unfold Hop0.out4
  rw [View.canon_unit_zero zero_offsets]
  simp only [View.ld_unit_zero (S := S4000x128) zero_offsets, View.ld_unit_zero (S := S4000x1) zero_offsets]
  obtain ⟨-, -, -, -, -, -, -, -, -, -, ht⟩ := block_indices t
  funext j
  obtain ⟨p, q, rfl⟩ : ∃ (p : Fin 4000) (q : Fin 128), j = ix2 p q := ⟨j 0, j 1, eq_ix2 (n0 := 4000) (n1 := 128) j⟩
  have hr : t.val * 4000 + p.val < 100000 := by have := p.isLt; omega
  show k0_pay2 (Hop0.iblk V c 0 t) (Hop0.iblk V c 1 t) (ix2 p q)
    = rowScale (V c main_arg0) (V c main_v7) (((cfg0.win 4).blk t).view.emb (ix2 p q))
  rw [scaled_entry t p q hr, rowScale_apply]
  refine (scaled_entry_value (Hop0.iblk V c 0 t) (Hop0.iblk V c 1 t) p q).trans ?_
  have h0 : Hop0.iblk V c 0 t (ix2 p q) = V c main_arg0 (ix2 (⟨t.val * 4000 + p.val, hr⟩ : Fin 100000) q) := by
    show V c main_arg0 (((cfg0.win 0).blk t).view.emb (ix2 p q)) = _
    rw [features_entry t p q hr]
  have h1 : Hop0.iblk V c 1 t (ix2 p (0 : Fin 1)) = V c main_v7 (ix2 (⟨t.val * 4000 + p.val, hr⟩ : Fin 100000) (0 : Fin 1)) := by
    show V c main_v7 (((cfg0.win 1).blk t).view.emb (ix2 p (0 : Fin 1))) = _
    rw [scale_entry t p hr]
  rw [h0, h1]

/-! ## The 25 blocks cover the array -/

theorem mem_product_block (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v8_0).slice (win0_3.rect t)).set ↔ _
  rw [View.set_slice_whole, Rect.mem_set_unit]
  exact Iff.rfl
theorem mem_scaled_block (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v8_1).slice (win0_4.rect t)).set ↔ _
  rw [View.set_slice_whole, Rect.mem_set_unit]
  exact Iff.rfl

/-- Row r is in the block of point r / 4000. -/
theorem product_rows_covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 4000, by rw [show cfg0.N = 25 from N_0]; omega⟩
  have htv : t.val = (i 0).val / 4000 := rfl
  obtain ⟨-, -, -, -, -, -, e6, e7, -⟩ := block_indices t
  refine ⟨t, flush0_3 t, ?_⟩
  rw [mem_product_block]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega
theorem scaled_rows_covered (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 4000, by rw [show cfg0.N = 25 from N_0]; omega⟩
  have htv : t.val = (i 0).val / 4000 := rfl
  obtain ⟨-, -, -, -, -, -, -, -, e8, e9, -⟩ := block_indices t
  refine ⟨t, flush0_4 t, ?_⟩
  rw [mem_scaled_block]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-! ## The two output arrays after the hop -/

theorem product_array (c : Dev nD) : (Hop0.dat V c).arrAt 3 cfg0.N = rowDot (V c main_arg0) (V c main_arg1) :=
  (Hop0.dat V c).arrAt_eq_of_cover 3 (rowDot (V c main_arg0) (V c main_arg1)) (fun t _ => product_block V c t) product_rows_covered
theorem scaled_array (c : Dev nD) : (Hop0.dat V c).arrAt 4 cfg0.N = rowScale (V c main_arg0) (V c main_v7) :=
  (Hop0.dat V c).arrAt_eq_of_cover 4 (rowScale (V c main_arg0) (V c main_v7)) (fun t _ => scaled_block V c t) scaled_rows_covered

end

end Cert.KernelIdeal.Hop0V

end
-- ==== Proof.KI.Value1.lean ====
/-
  What hop 1 leaves in its two output arrays, on the extended reals, for any contents V of the buffers when
  the hop is entered. With h the aggregated array with every row multiplied by its node's scale: the first
  output array is the matrix product of h with the weights, the second is h with every row multiplied by the
  scale once more.
  Block t of an output is rows 4000 t .. 4000 t + 3999; the body at point t computes, from rows
  4000 t .. 4000 t + 3999 of the aggregated array and of the scale column and from the whole weight matrix,
  exactly those rows of the two array functions; the 25 blocks cover the 100000 rows.
-/
import proofs.«115471_j4492535791994_1_alg».proof.Proof.KI.Hop1
import proofs.«115471_j4492535791994_1_alg».proof.Proof.Spec
import proofs.«115471_j4492535791994_1_alg».proof.Proof.LibPlainDot
import proofs.«115471_j4492535791994_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hop1V

open Idealize.ShloMosaic Idealize.ShloMosaic.TcCoe Idealize.ShloMosaic.ValueIdx Idealize.SL.Sem
open Idealize.ShloMosaic.Pipeline (Dat)
open Cert.KernelIdeal Cert.KernelIdeal.Gen Cert.HopSpec

/-! ## The body's two stored values at an entry -/

/-- The scale column as loaded. -/
theorem column_value (v2 : Vec Ideal S4000x1 .f32) : k1_pay1 v2 = v2 := by
  unfold k1_pay1
  exact shapeCast_self v2 _

/-- The rows scaled: entry (p, q) is x (p, q) * d (p, 0). -/
theorem scaled_once_value (x0 : Vec Ideal S4000x128 .f32) (x1 : Vec Ideal S4000x1 .f32) (p : Fin 4000) (q : Fin 128) :
    k1_pay2 x0 x1 (ix2 p q) = x0 (ix2 p q) * x1 (ix2 p (0 : Fin 1)) := by
  unfold k1_pay2
  show shapeCast S4000x128 x0 Facts₀.shapeCasts_S4000x128_S4000x128 (ix2 p q)
    * broadcastTo S4000x128 (k1_pay1 x1) Facts₀.broadcasts_S4000x1_S4000x128 (ix2 p q) = _
  rw [Cert.LibLayout.broadcastTo_a1_ab_apply, column_value, shapeCast_self]

/-- The product of the scaled rows with the weights into a zero accumulator, the operands passed through the
    narrower float format (the identity on the extended reals): entry (p, q) is the sum over k of
    (x (p, k) * d (p, 0)) * w (k, q). -/
theorem product_entry_value (x0 : Vec Ideal S4000x128 .f32) (x1 : Vec Ideal S4000x1 .f32) (w : Vec Ideal S128x128 .f32) (p : Fin 4000) (q : Fin 128) :
    k1_pay3 x0 x1 w (ix2 p q) = ∑ k : Fin 128, (x0 (ix2 p k) * x1 (ix2 p (0 : Fin 1))) * w (ix2 k q) := by
  unfold k1_pay3
  refine (PlainDot.matmul_zero_apply (M := 4000) (K := 128) (N := 128) Facts₀.dot_S4000x128_S128x128_S4000x128_1_0_0_1_n_n_wf none
    (truncf .bf16 (k1_pay2 x0 x1) Facts₀.bitsLt_bf16_f32) (truncf .bf16 w Facts₀.bitsLt_bf16_f32) p q).trans ?_
  refine Finset.sum_congr rfl fun k _ => ?_
  show k1_pay2 x0 x1 (ix2 p k) * w (ix2 k q) = _
  rw [scaled_once_value]

/-- The rows scaled twice: entry (p, q) is (x (p, q) * d (p, 0)) * d (p, 0). -/
theorem scaled_entry_value (x0 : Vec Ideal S4000x128 .f32) (x1 : Vec Ideal S4000x1 .f32) (p : Fin 4000) (q : Fin 128) :
    k1_pay4 x0 x1 (ix2 p q) = (x0 (ix2 p q) * x1 (ix2 p (0 : Fin 1))) * x1 (ix2 p (0 : Fin 1)) := by
  unfold k1_pay4
  show k1_pay2 x0 x1 (ix2 p q) * broadcastTo S4000x128 (k1_pay1 x1) Facts₀.broadcasts_S4000x1_S4000x128 (ix2 p q) = _
  rw [Cert.LibLayout.broadcastTo_a1_ab_apply, column_value, scaled_once_value]

/-! ## Where a block's entry sits in its array -/

theorem zero_offsets : (![0, 0] : Fin 2 → Nat) = fun _ => 0 := funext fun a => by fin_cases a <;> rfl

/-- The index maps over the grid: the row-blocked windows are at block row t, column block 0; the weights at (0, 0). -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 ∧ t.val < 25 :=
  (by decide +kernel : ∀ t : Fin grid1.N, _)

theorem features_entry (t : Fin cfg1.N) (p : Fin 4000) (k : Fin 128) (h : t.val * 4000 + p.val < 100000) :
    ((cfg1.win 0).blk t).view.emb (ix2 p k) = ix2 (⟨t.val * 4000 + p.val, h⟩ : Fin 100000) k := by
  obtain ⟨e0, e1, -⟩ := block_indices t
  funext a; apply Fin.ext
  match a with
  | ⟨0, _⟩ => show win1_0.index t (0 : Fin 2) * 4000 + 1 * p.val = t.val * 4000 + p.val; omega
  | ⟨1, _⟩ => show win1_0.index t (1 : Fin 2) * 128 + 1 * k.val = k.val; omega
theorem scale_entry (t : Fin cfg1.N) (p : Fin 4000) (h : t.val * 4000 + p.val < 100000) :
    ((cfg1.win 1).blk t).view.emb (ix2 p (0 : Fin 1)) = ix2 (⟨t.val * 4000 + p.val, h⟩ : Fin 100000) (0 : Fin 1) := by
  obtain ⟨-, -, e2, e3, -⟩ := block_indices t
  funext a; apply Fin.ext
  match a with
  | ⟨0, _⟩ => show win1_1.index t (0 : Fin 2) * 4000 + 1 * p.val = t.val * 4000 + p.val; omega
  | ⟨1, _⟩ => show win1_1.index t (1 : Fin 2) * 1 + 1 * 0 = 0; omega
theorem weights_entry (t : Fin cfg1.N) (k : Fin 128) (q : Fin 128) :
    ((cfg1.win 2).blk t).view.emb (ix2 k q) = ix2 k q := by
  obtain ⟨-, -, -, -, e4, e5, -⟩ := block_indices t
  funext a; apply Fin.ext
  match a with
  | ⟨0, _⟩ => show win1_2.index t (0 : Fin 2) * 128 + 1 * k.val = k.val; omega
  | ⟨1, _⟩ => show win1_2.index t (1 : Fin 2) * 128 + 1 * q.val = q.val; omega
theorem product_entry (t : Fin cfg1.N) (p : Fin 4000) (q : Fin 128) (h : t.val * 4000 + p.val < 100000) :
    ((cfg1.win 3).blk t).view.emb (ix2 p q) = ix2 (⟨t.val * 4000 + p.val, h⟩ : Fin 100000) q := by
  obtain ⟨-, -, -, -, -, -, e6, e7, -⟩ := block_indices t
  funext a; apply Fin.ext
  match a with
  | ⟨0, _⟩ => show win1_3.index t (0 : Fin 2) * 4000 + 1 * p.val = t.val * 4000 + p.val; omega
  | ⟨1, _⟩ => show win1_3.index t (1 : Fin 2) * 128 + 1 * q.val = q.val; omega
theorem scaled_entry (t : Fin cfg1.N) (p : Fin 4000) (q : Fin 128) (h : t.val * 4000 + p.val < 100000) :
    ((cfg1.win 4).blk t).view.emb (ix2 p q) = ix2 (⟨t.val * 4000 + p.val, h⟩ : Fin 100000) q := by
  obtain ⟨-, -, -, -, -, -, -, -, e8, e9, -⟩ := block_indices t
  funext a; apply Fin.ext
  match a with
  | ⟨0, _⟩ => show win1_4.index t (0 : Fin 2) * 4000 + 1 * p.val = t.val * 4000 + p.val; omega
  | ⟨1, _⟩ => show win1_4.index t (1 : Fin 2) * 128 + 1 * q.val = q.val; omega

section
variable (V : (c : Dev nD) → (b : Ref sig .tc) → Buf (Elt Ideal) ((c : Thread nD τ).loc b))

/-! ## What point t writes back -/

/-- Block t of the first output is block t of the matrix product. -/
theorem product_block (c : Dev nD) (t : Fin cfg1.N) :
    (Hop1.dat V c).flushed 3 t = ((cfg1.win 3).blk t).view.read (Elt Ideal) (rowDot (rowScale (V c main_v18) (V c main_v7)) (V c main_arg2)) := by
  show (cfg1.win 3).cut (grid1.coords t) ((Hop1.dat V c).after 3 t) = _
  rw [Hop1.after_3]
  unfold Hop1.out3
  rw [View.canon_unit_zero zero_offsets]
  simp only [View.ld_unit_zero (S := S4000x128) zero_offsets, View.ld_unit_zero (S := S4000x1) zero_offsets, View.ld_unit_zero (S := S128x128) zero_offsets]
  obtain ⟨-, -, -, -, -, -, -, -, -, -, ht⟩ := block_indices t
  funext j
  obtain ⟨p, q, rfl⟩ : ∃ (p : Fin 4000) (q : Fin 128), j = ix2 p q := ⟨j 0, j 1, eq_ix2 (n0 := 4000) (n1 := 128) j⟩
  have hr : t.val * 4000 + p.val < 100000 := by have := p.isLt; omega
  show k1_pay3 (Hop1.iblk V c 0 t) (Hop1.iblk V c 1 t) (Hop1.iblk V c 2 t) (ix2 p q)
    = rowDot (rowScale (V c main_v18) (V c main_v7)) (V c main_arg2) (((cfg1.win 3).blk t).view.emb (ix2 p q))
  rw [product_entry t p q hr, rowDot_apply]
  refine (product_entry_value (Hop1.iblk V c 0 t) (Hop1.iblk V c 1 t) (Hop1.iblk V c 2 t) p q).trans ?_
  refine Finset.sum_congr rfl fun k _ => ?_
  rw [rowScale_apply]
  have h1 : Hop1.iblk V c 1 t (ix2 p (0 : Fin 1)) = V c main_v7 (ix2 (⟨t.val * 4000 + p.val, hr⟩ : Fin 100000) (0 : Fin 1)) := by
    show V c main_v7 (((cfg1.win 1).blk t).view.emb (ix2 p (0 : Fin 1))) = _
    rw [scale_entry t p hr]
  have h0 : Hop1.iblk V c 0 t (ix2 p k) = V c main_v18 (ix2 (⟨t.val * 4000 + p.val, hr⟩ : Fin 100000) k) := by
    show V c main_v18 (((cfg1.win 0).blk t).view.emb (ix2 p k)) = _
    rw [features_entry t p k hr]
  have h2 : Hop1.iblk V c 2 t (ix2 k q) = V c main_arg2 (ix2 k q) := by
    show V c main_arg2 (((cfg1.win 2).blk t).view.emb (ix2 k q)) = _
    rw [weights_entry t k q]
  rw [h0, h1, h2]

/-- Block t of the second output is block t of the scaled features. -/
theorem scaled_block (c : Dev nD) (t : Fin cfg1.N) :
    (Hop1.dat V c).flushed 4 t = ((cfg1.win 4).blk t).view.read (Elt Ideal) (rowScale (rowScale (V c main_v18) (V c main_v7)) (V c main_v7)) := by
  show (cfg1.win 4).cut (grid1.coords t) ((Hop1.dat V c).after 4 t) = _
  rw [Hop1.after_4]
  unfold Hop1.out4
  rw [View.canon_unit_zero zero_offsets]
  simp only [View.ld_unit_zero (S := S4000x128) zero_offsets, View.ld_unit_zero (S := S4000x1) zero_offsets]
  obtain ⟨-, -, -, -, -, -, -, -, -, -, ht⟩ := block_indices t
  funext j
  obtain ⟨p, q, rfl⟩ : ∃ (p : Fin 4000) (q : Fin 128), j = ix2 p q := ⟨j 0, j 1, eq_ix2 (n0 := 4000) (n1 := 128) j⟩
  have hr : t.val * 4000 + p.val < 100000 := by have := p.isLt; omega
  show k1_pay4 (Hop1.iblk V c 0 t) (Hop1.iblk V c 1 t) (ix2 p q)
    = rowScale (rowScale (V c main_v18) (V c main_v7)) (V c main_v7) (((cfg1.win 4).blk t).view.emb (ix2 p q))
  rw [scaled_entry t p q hr, rowScale_apply, rowScale_apply]
  refine (scaled_entry_value (Hop1.iblk V c 0 t) (Hop1.iblk V c 1 t) p q).trans ?_
  have h0 : Hop1.iblk V c 0 t (ix2 p q) = V c main_v18 (ix2 (⟨t.val * 4000 + p.val, hr⟩ : Fin 100000) q) := by
    show V c main_v18 (((cfg1.win 0).blk t).view.emb (ix2 p q)) = _
    rw [features_entry t p q hr]
  have h1 : Hop1.iblk V c 1 t (ix2 p (0 : Fin 1)) = V c main_v7 (ix2 (⟨t.val * 4000 + p.val, hr⟩ : Fin 100000) (0 : Fin 1)) := by
    show V c main_v7 (((cfg1.win 1).blk t).view.emb (ix2 p (0 : Fin 1))) = _
    rw [scale_entry t p hr]
  rw [h0, h1]

/-! ## The 25 blocks cover the array -/

theorem mem_product_block (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v19_0).slice (win1_3.rect t)).set ↔ _
  rw [View.set_slice_whole, Rect.mem_set_unit]
  exact Iff.rfl
theorem mem_scaled_block (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v19_1).slice (win1_4.rect t)).set ↔ _
  rw [View.set_slice_whole, Rect.mem_set_unit]
  exact Iff.rfl

/-- Row r is in the block of point r / 4000. -/
theorem product_rows_covered (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 4000, by rw [show cfg1.N = 25 from N_1]; omega⟩
  have htv : t.val = (i 0).val / 4000 := rfl
  obtain ⟨-, -, -, -, -, -, e6, e7, -⟩ := block_indices t
  refine ⟨t, flush1_3 t, ?_⟩
  rw [mem_product_block]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega
theorem scaled_rows_covered (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 4000, by rw [show cfg1.N = 25 from N_1]; omega⟩
  have htv : t.val = (i 0).val / 4000 := rfl
  obtain ⟨-, -, -, -, -, -, -, -, e8, e9, -⟩ := block_indices t
  refine ⟨t, flush1_4 t, ?_⟩
  rw [mem_scaled_block]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-! ## The two output arrays after the hop -/

theorem product_array (c : Dev nD) : (Hop1.dat V c).arrAt 3 cfg1.N = rowDot (rowScale (V c main_v18) (V c main_v7)) (V c main_arg2) :=
  (Hop1.dat V c).arrAt_eq_of_cover 3 (rowDot (rowScale (V c main_v18) (V c main_v7)) (V c main_arg2)) (fun t _ => product_block V c t) product_rows_covered
theorem scaled_array (c : Dev nD) : (Hop1.dat V c).arrAt 4 cfg1.N = rowScale (rowScale (V c main_v18) (V c main_v7)) (V c main_v7) :=
  (Hop1.dat V c).arrAt_eq_of_cover 4 (rowScale (rowScale (V c main_v18) (V c main_v7)) (V c main_v7)) (fun t _ => scaled_block V c t) scaled_rows_covered

end

end Cert.KernelIdeal.Hop1V

end
-- ==== Proof.KI.Value2.lean ====
/-
  What hop 2 leaves in its output array, on the extended reals, for any contents V of the buffers when the
  hop is entered: the matrix product, with the weights, of the aggregated array with every row multiplied by
  its node's scale.
  Block t of the output is rows 4000 t .. 4000 t + 3999; the body at point t computes, from rows
  4000 t .. 4000 t + 3999 of the aggregated array and of the scale column and from the whole weight matrix,
  exactly those rows of the array function; the 25 blocks cover the 100000 rows.
-/
import proofs.«115471_j4492535791994_1_alg».proof.Proof.KI.Hop2
import proofs.«115471_j4492535791994_1_alg».proof.Proof.Spec
import proofs.«115471_j4492535791994_1_alg».proof.Proof.LibPlainDot
import proofs.«115471_j4492535791994_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hop2V

open Idealize.ShloMosaic Idealize.ShloMosaic.TcCoe Idealize.ShloMosaic.ValueIdx Idealize.SL.Sem
open Idealize.ShloMosaic.Pipeline (Dat)
open Cert.KernelIdeal Cert.KernelIdeal.Gen Cert.HopSpec

/-! ## The body's stored value at an entry -/

/-- The product of the scaled rows with the weights into a zero accumulator, the operands passed through the
    narrower float format (the identity on the extended reals): entry (p, q) is the sum over k of
    (x (p, k) * d (p, 0)) * w (k, q). -/
theorem product_entry_value (x0 : Vec Ideal S4000x128 .f32) (x1 : Vec Ideal S4000x1 .f32) (w : Vec Ideal S128x128 .f32) (p : Fin 4000) (q : Fin 128) :
    k2_pay1 x0 x1 w (ix2 p q) = ∑ k : Fin 128, (x0 (ix2 p k) * x1 (ix2 p (0 : Fin 1))) * w (ix2 k q) := by
  unfold k2_pay1
  refine (PlainDot.matmul_zero_apply (M := 4000) (K := 128) (N := 128) Facts₀.dot_S4000x128_S128x128_S4000x128_1_0_0_1_n_n_wf none
    (truncf .bf16 (mulf (shapeCast S4000x128 x0 Facts₀.shapeCasts_S4000x128_S4000x128)
      (broadcastTo S4000x128 (shapeCast S4000x1 x1 Facts₀.shapeCasts_S4000x1_S4000x1) Facts₀.broadcasts_S4000x1_S4000x128)) Facts₀.bitsLt_bf16_f32)
    (truncf .bf16 w Facts₀.bitsLt_bf16_f32) p q).trans ?_
  refine Finset.sum_congr rfl fun k _ => ?_
  show (shapeCast S4000x128 x0 Facts₀.shapeCasts_S4000x128_S4000x128 (ix2 p k)
    * broadcastTo S4000x128 (shapeCast S4000x1 x1 Facts₀.shapeCasts_S4000x1_S4000x1) Facts₀.broadcasts_S4000x1_S4000x128 (ix2 p k)) * w (ix2 k q) = _
  rw [Cert.LibLayout.broadcastTo_a1_ab_apply, shapeCast_self, shapeCast_self]

/-! ## Where a block's entry sits in its array -/

theorem zero_offsets : (![0, 0] : Fin 2 → Nat) = fun _ => 0 := funext fun a => by fin_cases a <;> rfl

/-- The index maps over the grid: the row-blocked windows are at block row t, column block 0; the weights at (0, 0). -/
theorem block_indices : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 25 :=
  (by decide +kernel : ∀ t : Fin grid2.N, _)

theorem features_entry (t : Fin cfg2.N) (p : Fin 4000) (k : Fin 128) (h : t.val * 4000 + p.val < 100000) :
    ((cfg2.win 0).blk t).view.emb (ix2 p k) = ix2 (⟨t.val * 4000 + p.val, h⟩ : Fin 100000) k := by
  obtain ⟨e0, e1, -⟩ := block_indices t
  funext a; apply Fin.ext
  match a with
  | ⟨0, _⟩ => show win2_0.index t (0 : Fin 2) * 4000 + 1 * p.val = t.val * 4000 + p.val; omega
  | ⟨1, _⟩ => show win2_0.index t (1 : Fin 2) * 128 + 1 * k.val = k.val; omega
theorem scale_entry (t : Fin cfg2.N) (p : Fin 4000) (h : t.val * 4000 + p.val < 100000) :
    ((cfg2.win 1).blk t).view.emb (ix2 p (0 : Fin 1)) = ix2 (⟨t.val * 4000 + p.val, h⟩ : Fin 100000) (0 : Fin 1) := by
  obtain ⟨-, -, e2, e3, -⟩ := block_indices t
  funext a; apply Fin.ext
  match a with
  | ⟨0, _⟩ => show win2_1.index t (0 : Fin 2) * 4000 + 1 * p.val = t.val * 4000 + p.val; omega
  | ⟨1, _⟩ => show win2_1.index t (1 : Fin 2) * 1 + 1 * 0 = 0; omega
theorem weights_entry (t : Fin cfg2.N) (k : Fin 128) (q : Fin 128) :
    ((cfg2.win 2).blk t).view.emb (ix2 k q) = ix2 k q := by
  obtain ⟨-, -, -, -, e4, e5, -⟩ := block_indices t
  funext a; apply Fin.ext
  match a with
  | ⟨0, _⟩ => show win2_2.index t (0 : Fin 2) * 128 + 1 * k.val = k.val; omega
  | ⟨1, _⟩ => show win2_2.index t (1 : Fin 2) * 128 + 1 * q.val = q.val; omega
theorem product_entry (t : Fin cfg2.N) (p : Fin 4000) (q : Fin 128) (h : t.val * 4000 + p.val < 100000) :
    ((cfg2.win 3).blk t).view.emb (ix2 p q) = ix2 (⟨t.val * 4000 + p.val, h⟩ : Fin 100000) q := by
  obtain ⟨-, -, -, -, -, -, e6, e7, -⟩ := block_indices t
  funext a; apply Fin.ext
  match a with
  | ⟨0, _⟩ => show win2_3.index t (0 : Fin 2) * 4000 + 1 * p.val = t.val * 4000 + p.val; omega
  | ⟨1, _⟩ => show win2_3.index t (1 : Fin 2) * 128 + 1 * q.val = q.val; omega

section
variable (V : (c : Dev nD) → (b : Ref sig .tc) → Buf (Elt Ideal) ((c : Thread nD τ).loc b))

/-! ## What point t writes back -/

/-- Block t of the first output is block t of the matrix product. -/
theorem product_block (c : Dev nD) (t : Fin cfg2.N) :
    (Hop2.dat V c).flushed 3 t = ((cfg2.win 3).blk t).view.read (Elt Ideal) (rowDot (rowScale (V c main_v29) (V c main_v7)) (V c main_arg3)) := by
  show (cfg2.win 3).cut (grid2.coords t) ((Hop2.dat V c).after 3 t) = _
  rw [Hop2.after_3]
  unfold Hop2.out3
  rw [View.canon_unit_zero zero_offsets]
  simp only [View.ld_unit_zero (S := S4000x128) zero_offsets, View.ld_unit_zero (S := S4000x1) zero_offsets, View.ld_unit_zero (S := S128x128) zero_offsets]
  obtain ⟨-, -, -, -, -, -, -, -, ht⟩ := block_indices t
  funext j
  obtain ⟨p, q, rfl⟩ : ∃ (p : Fin 4000) (q : Fin 128), j = ix2 p q := ⟨j 0, j 1, eq_ix2 (n0 := 4000) (n1 := 128) j⟩
  have hr : t.val * 4000 + p.val < 100000 := by have := p.isLt; omega
  show k2_pay1 (Hop2.iblk V c 0 t) (Hop2.iblk V c 1 t) (Hop2.iblk V c 2 t) (ix2 p q)
    = rowDot (rowScale (V c main_v29) (V c main_v7)) (V c main_arg3) (((cfg2.win 3).blk t).view.emb (ix2 p q))
  rw [product_entry t p q hr, rowDot_apply]
  refine (product_entry_value (Hop2.iblk V c 0 t) (Hop2.iblk V c 1 t) (Hop2.iblk V c 2 t) p q).trans ?_
  refine Finset.sum_congr rfl fun k _ => ?_
  rw [rowScale_apply]
  have h1 : Hop2.iblk V c 1 t (ix2 p (0 : Fin 1)) = V c main_v7 (ix2 (⟨t.val * 4000 + p.val, hr⟩ : Fin 100000) (0 : Fin 1)) := by
    show V c main_v7 (((cfg2.win 1).blk t).view.emb (ix2 p (0 : Fin 1))) = _
    rw [scale_entry t p hr]
  have h0 : Hop2.iblk V c 0 t (ix2 p k) = V c main_v29 (ix2 (⟨t.val * 4000 + p.val, hr⟩ : Fin 100000) k) := by
    show V c main_v29 (((cfg2.win 0).blk t).view.emb (ix2 p k)) = _
    rw [features_entry t p k hr]
  have h2 : Hop2.iblk V c 2 t (ix2 k q) = V c main_arg3 (ix2 k q) := by
    show V c main_arg3 (((cfg2.win 2).blk t).view.emb (ix2 k q)) = _
    rw [weights_entry t k q]
  rw [h0, h1, h2]

/-! ## The 25 blocks cover the array -/

theorem mem_product_block (t : Fin cfg2.N) (i : S100000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v30).slice (win2_3.rect t)).set ↔ _
  rw [View.set_slice_whole, Rect.mem_set_unit]
  exact Iff.rfl

/-- Row r is in the block of point r / 4000. -/
theorem product_rows_covered (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 4000, by rw [show cfg2.N = 25 from N_2]; omega⟩
  have htv : t.val = (i 0).val / 4000 := rfl
  obtain ⟨-, -, -, -, -, -, e6, e7, -⟩ := block_indices t
  refine ⟨t, flush2_3 t, ?_⟩
  rw [mem_product_block]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

/-! ## The output array after the hop -/

theorem product_array (c : Dev nD) : (Hop2.dat V c).arrAt 3 cfg2.N = rowDot (rowScale (V c main_v29) (V c main_v7)) (V c main_arg3) :=
  (Hop2.dat V c).arrAt_eq_of_cover 3 (rowDot (rowScale (V c main_v29) (V c main_v7)) (V c main_arg3)) (fun t _ => product_block V c t) product_rows_covered

end

end Cert.KernelIdeal.Hop2V

end
-- ==== Proof.RefValue.lean ====
/-
  The reference's two array operations are the layer's two array functions: the host's matrix product of the
  node rows with a weight matrix is rowDot, and the host's product of the node rows with the scale column
  broadcast along the features is rowScale — entry by entry, on the extended reals.
-/
import proofs.«115471_j4492535791994_1_alg».proof.Proof.Gen.ReferenceIdeal.Read
import proofs.«115471_j4492535791994_1_alg».proof.Proof.Spec
import proofs.«115471_j4492535791994_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.RefSpec

open Idealize.ShloMosaic Idealize.ShloMosaic.ValueIdx Idealize.SL.Sem
open Cert.ReferenceIdeal Cert.HopSpec

/-- The host's product contracting the rows' feature axis with the weights' first axis is the matrix product. -/
theorem dot_eq (X : FVec Ideal S100000x128 .f32) (W : FVec Ideal S128x128 .f32) :
    Host.dotGeneral dot_S100000x128_S128x128_S100000x128_1_0_0_1_n_n none X W = rowDot X W := by
  funext i
  obtain ⟨r, q, rfl⟩ : ∃ (r : Fin 100000) (q : Fin 128), i = ix2 r q := ⟨i 0, i 1, eq_ix2 (n0 := 100000) (n1 := 128) i⟩
  rw [rowDot_apply]
  simp only [Host.dotGeneral]
  exact PlainDot.dotGeneral_apply (M := 100000) (K := 128) (N := 128) Facts₀.dot_S100000x128_S128x128_S100000x128_1_0_0_1_n_n_wf none _ X W r q

/-- The host's product with the scale column broadcast along the features multiplies every row by its scale. -/
theorem scale_eq (X : FVec Ideal S100000x128 .f32) (d : FVec Ideal S100000x1 .f32) :
    mulf X (broadcastInDim S100000x128 ![0, 1] Facts₀.bcast_S100000x1_S100000x128_0_1 d) = rowScale X d := by
  funext i
  obtain ⟨r, q, rfl⟩ : ∃ (r : Fin 100000) (q : Fin 128), i = ix2 r q := ⟨i 0, i 1, eq_ix2 (n0 := 100000) (n1 := 128) i⟩
  rw [rowScale_apply]
  show X (ix2 r q) * broadcastInDim S100000x128 ![0, 1] Facts₀.bcast_S100000x1_S100000x128_0_1 d (ix2 r q) = _
  rw [broadcastInDim_apply ![0, 1] Facts₀.bcast_S100000x1_S100000x128_0_1 d (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])]

end Cert.ReferenceIdeal.RefSpec

end
-- ==== Proof.LibTypedRefs.lean ====
/-
  A value carried to a buffer's own type and back.

  A host operation printed inside a module-local function (an outlined relu, a log-softmax) names its buffers by
  typed references: a reference together with the fact that its buffer has a stated type. The operation's function
  is then wrapped: each operand is carried from the buffer's type to the stated one, the result back. When such
  operations are composed, every intermediate value makes the round trip — stated type, buffer's type, stated type —
  and the round trip is the identity, for ANY typed reference, by taking the type fact apart. Rewriting with this
  one equation first leaves a composed term free of transports, which then meets the plain composition of the
  operations' functions syntactically; without it the comparison has to evaluate each buffer's type out of the
  program's buffer table.
-/
import Idealize.ShloMosaic.Lib.StableHlo

noncomputable section

namespace Idealize.ShloMosaic.TypedRefs

open Idealize.ShloMosaic Idealize.ShloMosaic.StableHlo

variable {sig : RefSig} {Val : EltTy → Type} {T : BufTy}

/-- A value of the stated type, carried to the buffer's type and back, is the value. -/
theorem ofBuf_toBuf (x : TRef sig T) (v : T.Contents Val) : x.ofBuf (x.toBuf v) = v := by
  obtain ⟨r, rfl, _, _⟩ := x; rfl

/-- A buffer's contents, carried to the stated type and back, are the contents. -/
theorem toBuf_ofBuf (x : TRef sig T) (v : x.ref.ty.Contents Val) : x.toBuf (x.ofBuf v) = v := by
  obtain ⟨r, rfl, _, _⟩ := x; rfl

end Idealize.ShloMosaic.TypedRefs

end
-- ==== Proof.KI.Result.lean ====
/-
  The program's result array as one function of its six arguments, on the extended reals, and that function
  is the reference's.
  Reading the fold of the run boundary by boundary: the scale column d is the reference's (the same host
  operations on the same target indices); hop 0 leaves x·W0 and x scaled by d; the gather of source rows and
  scatter-add into target rows make the aggregated array a1, the reference's; hop 1 leaves (a1 scaled)·W1 and
  a1 scaled twice; gather and scatter-add again make a2; hop 2 leaves (a2 scaled)·W2; and the concatenation
  lays the three products side by side. Each of these is, operation by operation, what the reference's stages
  compute from the same six arrays.
-/
import proofs.«115471_j4492535791994_1_alg».proof.Proof.KI.Run
import proofs.«115471_j4492535791994_1_alg».proof.Proof.KI.Value0
import proofs.«115471_j4492535791994_1_alg».proof.Proof.KI.Value1
import proofs.«115471_j4492535791994_1_alg».proof.Proof.KI.Value2
import proofs.«115471_j4492535791994_1_alg».proof.Proof.RefValue
import proofs.«115471_j4492535791994_1_alg».proof.Proof.LibTypedRefs
import Idealize.ShloMosaic.Lib.StableHlo.Run

set_option maxRecDepth 16384

noncomputable section

namespace Cert.KernelIdeal.HopResult

open Idealize.ShloMosaic Idealize.ShloMosaic.TcCoe Idealize.ShloMosaic.StableHlo Idealize.SL.Sem
open Cert.KernelIdeal Cert.KernelIdeal.Gen Cert.KernelIdeal.HopRun Cert.HopSpec
open Cert.ReferenceIdeal.Read Cert.ReferenceIdeal.RefSpec

variable (m : (ℓ : Loc nD τ sig) → Buf (Elt Ideal) ℓ) (ρ : Dev nD → PrngReg)

/-! ## The two programs' dimension records, and the clamp's typed buffers -/

/-- The scatter-add that counts in-degrees, the scatter-add of rows and the row gather carry the same dimension
    numbers in both programs. -/
theorem same_count_dims : Cert.KernelIdeal.scatter_S100000_S1600000x1_S1600000_n_0_0_1 = Cert.ReferenceIdeal.scatter_S100000_S1600000x1_S1600000_n_0_0_1 := rfl
theorem same_row_scatter_dims : Cert.KernelIdeal.scatter_S100000x128_S1600000x1_S1600000x128_1_0_0_1 = Cert.ReferenceIdeal.scatter_S100000x128_S1600000x1_S1600000x128_1_0_0_1 := rfl
theorem same_row_gather_dims : Cert.KernelIdeal.gather_S100000x128_S1600000x1_S1600000x128_1_0_n_n_0_1_1128 = Cert.ReferenceIdeal.gather_S100000x128_S1600000x1_S1600000x128_1_0_n_n_0_1_1128 := rfl

/-- The clamp's operands and result are read and written at buffers of exactly their stated types: the transport
    between a buffer's type and the stated one is the identity. -/
theorem clamp_result_as_stored (v : (⟨S100000, .f32⟩ : BufTy).Contents (Elt Ideal)) :
    (TRef.of main_v4 : TRef sig ⟨S100000, .f32⟩).toBuf v = v := rfl
theorem clamp_bound_as_read (v : (⟨S_, .f32⟩ : BufTy).Contents (Elt Ideal)) :
    (TRef.of main_cst_1 : TRef sig ⟨S_, .f32⟩).ofBuf v = v := rfl
theorem clamp_count_as_read (v : (⟨S100000, .f32⟩ : BufTy).Contents (Elt Ideal)) :
    (TRef.of main_v3 : TRef sig ⟨S100000, .f32⟩).ofBuf v = v := rfl

/-! ## Before hop 0 -/

/-- The scale column the three hops read is the reference's. -/
theorem scale_column (c : Dev nD) :
    W3 m ρ c (Proc.devRef .tc main_v7) = val_main_v7 (m ((c : Thread nD τ).loc main_arg5)) := by
  show StableHlo.after hostOps0_2 (StableHlo.after hostOps0_1 (StableHlo.after hostOps0 (W0 m ρ c))) (Proc.devRef .tc main_v7) = _
  after_results
  simp only [TypedRefs.ofBuf_toBuf]
  rw [clamp_result_as_stored, clamp_bound_as_read, clamp_count_as_read, same_count_dims]
  unfold val_main_v7 val_main_v6 val_main_v4 val_main_v5 val_main_call0_v1 val_main_call0_v0 val_main_cst_1 val_main_v3 val_main_v2 val_main_v1 val_main_v0 val_main_cst val_main_cst_0 val_main_cst_2
  rfl

theorem entry0_arg0 (c : Dev nD) : W3 m ρ c (Proc.devRef .tc main_arg0) = m ((c : Thread nD τ).loc main_arg0) :=
  W3_launch m ρ c main_arg0 (by decide) (by decide) (by decide)
theorem entry0_arg1 (c : Dev nD) : W3 m ρ c (Proc.devRef .tc main_arg1) = m ((c : Thread nD τ).loc main_arg1) :=
  W3_launch m ρ c main_arg1 (by decide) (by decide) (by decide)

/-! ## After hop 0 -/

/-- Hop 0's first output is the reference's first product. -/
theorem hop0_product (c : Dev nD) :
    W4 m ρ c (Proc.devRef .tc main_v8_0) = val_main_v8 (m ((c : Thread nD τ).loc main_arg0)) (m ((c : Thread nD τ).loc main_arg1)) := by
  refine (W4_arr m ρ c 3).trans ((Hop0V.product_array (V3 m ρ) c).trans ?_)
  show rowDot (W3 m ρ c (Proc.devRef .tc main_arg0)) (W3 m ρ c (Proc.devRef .tc main_arg1)) = _
  rw [entry0_arg0, entry0_arg1]
  unfold val_main_v8
  exact (dot_eq _ _).symm

/-- Hop 0's second output is the reference's scaled feature array. -/
theorem hop0_scaled (c : Dev nD) :
    W4 m ρ c (Proc.devRef .tc main_v8_1) = val_main_v10 (m ((c : Thread nD τ).loc main_arg0)) (m ((c : Thread nD τ).loc main_arg5)) := by
  refine (W4_arr m ρ c 4).trans ((Hop0V.scaled_array (V3 m ρ) c).trans ?_)
  show rowScale (W3 m ρ c (Proc.devRef .tc main_arg0)) (W3 m ρ c (Proc.devRef .tc main_v7)) = _
  rw [entry0_arg0, scale_column]
  unfold val_main_v10 val_main_v9
  exact (scale_eq _ _).symm

theorem after0_arg4 (c : Dev nD) : W4 m ρ c (Proc.devRef .tc main_arg4) = m ((c : Thread nD τ).loc main_arg4) :=
  (W4_of_ne m ρ c main_arg4 (by decide)).trans (W3_launch m ρ c main_arg4 (by decide) (by decide) (by decide))
theorem after0_arg5 (c : Dev nD) : W4 m ρ c (Proc.devRef .tc main_arg5) = m ((c : Thread nD τ).loc main_arg5) :=
  (W4_of_ne m ρ c main_arg5 (by decide)).trans (W3_launch m ρ c main_arg5 (by decide) (by decide) (by decide))
theorem after0_arg2 (c : Dev nD) : W4 m ρ c (Proc.devRef .tc main_arg2) = m ((c : Thread nD τ).loc main_arg2) :=
  (W4_of_ne m ρ c main_arg2 (by decide)).trans (W3_launch m ρ c main_arg2 (by decide) (by decide) (by decide))
theorem after0_arg3 (c : Dev nD) : W4 m ρ c (Proc.devRef .tc main_arg3) = m ((c : Thread nD τ).loc main_arg3) :=
  (W4_of_ne m ρ c main_arg3 (by decide)).trans (W3_launch m ρ c main_arg3 (by decide) (by decide) (by decide))
theorem after0_scale (c : Dev nD) : W4 m ρ c (Proc.devRef .tc main_v7) = val_main_v7 (m ((c : Thread nD τ).loc main_arg5)) :=
  ((W4_arr m ρ c 1).trans (((Hop0.dat (V3 m ρ) c).arrAt_in 1 rfl _).trans (Hop0.A_eq (V3 m ρ) c 1))).trans (scale_column m ρ c)

/-! ## Before hop 1: the first aggregation -/

/-- The gather of source rows and scatter-add into target rows of hop 0's scaled array is the reference's. -/
theorem aggregated1 (c : Dev nD) :
    W5 m ρ c (Proc.devRef .tc main_v18) = val_main_v20 (m ((c : Thread nD τ).loc main_arg0)) (m ((c : Thread nD τ).loc main_arg4)) (m ((c : Thread nD τ).loc main_arg5)) := by
  show StableHlo.after hostOps1 (W4 m ρ c) (Proc.devRef .tc main_v18) = _
  after_results
  rw [hop0_scaled, after0_arg4, after0_arg5, same_row_scatter_dims, same_row_gather_dims]
  unfold val_main_v20 val_main_v18 val_main_v19 val_main_v17 val_main_v16 val_main_v15 val_main_v14 val_main_v13 val_main_v12 val_main_v11 val_main_c val_main_c_3 val_main_cst_4
  rfl

theorem entry1_scale (c : Dev nD) : W5 m ρ c (Proc.devRef .tc main_v7) = val_main_v7 (m ((c : Thread nD τ).loc main_arg5)) :=
  (W5_of m ρ c main_v7 (by decide)).trans (after0_scale m ρ c)
theorem entry1_arg2 (c : Dev nD) : W5 m ρ c (Proc.devRef .tc main_arg2) = m ((c : Thread nD τ).loc main_arg2) :=
  (W5_of m ρ c main_arg2 (by decide)).trans (after0_arg2 m ρ c)

/-! ## After hop 1 -/

theorem hop1_product (c : Dev nD) :
    W6 m ρ c (Proc.devRef .tc main_v19_0) = val_main_v23 (m ((c : Thread nD τ).loc main_arg0)) (m ((c : Thread nD τ).loc main_arg2)) (m ((c : Thread nD τ).loc main_arg4)) (m ((c : Thread nD τ).loc main_arg5)) := by
  refine (W6_arr m ρ c 3).trans ((Hop1V.product_array (V5 m ρ) c).trans ?_)
  show rowDot (rowScale (W5 m ρ c (Proc.devRef .tc main_v18)) (W5 m ρ c (Proc.devRef .tc main_v7))) (W5 m ρ c (Proc.devRef .tc main_arg2)) = _
  rw [aggregated1, entry1_scale, entry1_arg2, ← scale_eq, ← dot_eq]
  unfold val_main_v23 val_main_v22 val_main_v21
  rfl

theorem hop1_scaled (c : Dev nD) :
    W6 m ρ c (Proc.devRef .tc main_v19_1) = val_main_v25 (m ((c : Thread nD τ).loc main_arg0)) (m ((c : Thread nD τ).loc main_arg4)) (m ((c : Thread nD τ).loc main_arg5)) := by
  refine (W6_arr m ρ c 4).trans ((Hop1V.scaled_array (V5 m ρ) c).trans ?_)
  show rowScale (rowScale (W5 m ρ c (Proc.devRef .tc main_v18)) (W5 m ρ c (Proc.devRef .tc main_v7))) (W5 m ρ c (Proc.devRef .tc main_v7)) = _
  rw [aggregated1, entry1_scale, ← scale_eq, ← scale_eq]
  unfold val_main_v25 val_main_v24 val_main_v22 val_main_v21
  rfl

theorem after1_arg4 (c : Dev nD) : W6 m ρ c (Proc.devRef .tc main_arg4) = m ((c : Thread nD τ).loc main_arg4) :=
  (W6_of_ne m ρ c main_arg4 (by decide)).trans ((W5_of m ρ c main_arg4 (by decide)).trans (after0_arg4 m ρ c))
theorem after1_arg5 (c : Dev nD) : W6 m ρ c (Proc.devRef .tc main_arg5) = m ((c : Thread nD τ).loc main_arg5) :=
  (W6_of_ne m ρ c main_arg5 (by decide)).trans ((W5_of m ρ c main_arg5 (by decide)).trans (after0_arg5 m ρ c))
theorem after1_arg3 (c : Dev nD) : W6 m ρ c (Proc.devRef .tc main_arg3) = m ((c : Thread nD τ).loc main_arg3) :=
  (W6_of_ne m ρ c main_arg3 (by decide)).trans ((W5_of m ρ c main_arg3 (by decide)).trans (after0_arg3 m ρ c))
theorem after1_scale (c : Dev nD) : W6 m ρ c (Proc.devRef .tc main_v7) = val_main_v7 (m ((c : Thread nD τ).loc main_arg5)) :=
  ((W6_arr m ρ c 1).trans (((Hop1.dat (V5 m ρ) c).arrAt_in 1 rfl _).trans (Hop1.A_eq (V5 m ρ) c 1))).trans (entry1_scale m ρ c)
theorem after1_product0 (c : Dev nD) :
    W6 m ρ c (Proc.devRef .tc main_v8_0) = val_main_v8 (m ((c : Thread nD τ).loc main_arg0)) (m ((c : Thread nD τ).loc main_arg1)) :=
  (W6_of_ne m ρ c main_v8_0 (by decide)).trans ((W5_of m ρ c main_v8_0 (by decide)).trans (hop0_product m ρ c))

/-! ## Before hop 2: the second aggregation -/

theorem aggregated2 (c : Dev nD) :
    W7 m ρ c (Proc.devRef .tc main_v29) = val_main_v35 (m ((c : Thread nD τ).loc main_arg0)) (m ((c : Thread nD τ).loc main_arg4)) (m ((c : Thread nD τ).loc main_arg5)) := by
  show StableHlo.after hostOps2 (W6 m ρ c) (Proc.devRef .tc main_v29) = _
  after_results
  rw [hop1_scaled, after1_arg4, after1_arg5, same_row_scatter_dims, same_row_gather_dims]
  unfold val_main_v35 val_main_v33 val_main_v34 val_main_v32 val_main_v31 val_main_v30 val_main_v29 val_main_v28 val_main_v27 val_main_v26 val_main_c_5 val_main_c_6 val_main_cst_7
  rfl

theorem entry2_scale (c : Dev nD) : W7 m ρ c (Proc.devRef .tc main_v7) = val_main_v7 (m ((c : Thread nD τ).loc main_arg5)) :=
  (W7_of m ρ c main_v7 (by decide)).trans (after1_scale m ρ c)
theorem entry2_arg3 (c : Dev nD) : W7 m ρ c (Proc.devRef .tc main_arg3) = m ((c : Thread nD τ).loc main_arg3) :=
  (W7_of m ρ c main_arg3 (by decide)).trans (after1_arg3 m ρ c)

/-! ## After hop 2 -/

theorem hop2_product (c : Dev nD) :
    W8 m ρ c (Proc.devRef .tc main_v30) = val_main_v38 (m ((c : Thread nD τ).loc main_arg0)) (m ((c : Thread nD τ).loc main_arg3)) (m ((c : Thread nD τ).loc main_arg4)) (m ((c : Thread nD τ).loc main_arg5)) := by
  refine (W8_arr m ρ c 3).trans ((Hop2V.product_array (V7 m ρ) c).trans ?_)
  show rowDot (rowScale (W7 m ρ c (Proc.devRef .tc main_v29)) (W7 m ρ c (Proc.devRef .tc main_v7))) (W7 m ρ c (Proc.devRef .tc main_arg3)) = _
  rw [aggregated2, entry2_scale, entry2_arg3, ← scale_eq, ← dot_eq]
  unfold val_main_v38 val_main_v37 val_main_v36
  rfl

theorem after2_product0 (c : Dev nD) :
    W8 m ρ c (Proc.devRef .tc main_v8_0) = val_main_v8 (m ((c : Thread nD τ).loc main_arg0)) (m ((c : Thread nD τ).loc main_arg1)) :=
  (W8_of_ne m ρ c main_v8_0 (by decide)).trans ((W7_of m ρ c main_v8_0 (by decide)).trans (after1_product0 m ρ c))
theorem after2_product1 (c : Dev nD) :
    W8 m ρ c (Proc.devRef .tc main_v19_0) = val_main_v23 (m ((c : Thread nD τ).loc main_arg0)) (m ((c : Thread nD τ).loc main_arg2)) (m ((c : Thread nD τ).loc main_arg4)) (m ((c : Thread nD τ).loc main_arg5)) :=
  (W8_of_ne m ρ c main_v19_0 (by decide)).trans ((W7_of m ρ c main_v19_0 (by decide)).trans (hop1_product m ρ c))

/-! ## The result -/

/-- The result array at the end of the run is the reference's result function of the six arguments. -/
theorem result (c : Dev nD) :
    W9 m ρ c (Proc.devRef .tc main_v31) = val_main_v53 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W8 m ρ c) (Proc.devRef .tc main_v31) = _
  after_results
  show concatenate S100000x384 1 [⟨S100000x128, W8 m ρ c (Proc.devRef .tc main_v8_0)⟩, ⟨S100000x128, W8 m ρ c (Proc.devRef .tc main_v19_0)⟩, ⟨S100000x128, W8 m ρ c (Proc.devRef .tc main_v30)⟩] Facts₀.concatenates_S100000x128_S100000x128_S100000x128_S100000x384_d1 = _
  rw [after2_product0, after2_product1, hop2_product]
  unfold val_main_v53
  rfl

/-- THE RUN, READ: every weakly fair execution ends with the result array at the reference's function of the six
    arguments, and the arguments as launched. -/
theorem run : θ_run defs (onTc (τ := τ) (main (F := Ideal))) ⟨m, fun _ => 0, ρ⟩ (fun r => ∀ c : Dev nD,
      r.2.mem ((c.tc : Thread nD τ).loc main_v31) = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v31 (by decide))).trans (result m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩) (run_all m ρ)

end Cert.KernelIdeal.HopResult

end
-- ==== Proof.lean ====
/-
  The claim for the three-hop layer: a per-node scale d = max(deg, 1)^(-1/2) from the in-degree count, and,
  with x the features, the three products x·W0, (A x)·W1, (A (A x))·W2 laid side by side, where A h is h with
  rows scaled by d, gathered at the edges' sources, summed into the edges' targets, and scaled by d again.

  The program computes each product and each row scaling in a pipelined region over 25 blocks of 4000 rows,
  the operands of a product passed through a narrower float format first; the reference computes them with
  one host matrix product and one host multiplication per hop. On the extended reals a change of float format
  is the identity and both products are the same finite sum, so the two programs are, stage by stage, the same
  functions of the six arguments: no law of arithmetic beyond reading each block's rows where they sit in the
  array is used, and the precondition is not opened.

  The frames: each program is run as nine segments (host stretches and the three regions), every buffer's
  contents followed from the launch to the end; no segment writes an argument array. The ideal pass rewrote
  nothing, so the idealization claim is trivial.
-/
import proofs.«115471_j4492535791994_1_alg».proof.Defs
import proofs.«115471_j4492535791994_1_alg».proof.Proof.Gen.Kernel
import proofs.«115471_j4492535791994_1_alg».proof.Proof.Gen.KernelIdeal
import proofs.«115471_j4492535791994_1_alg».proof.Proof.Gen.ReferenceIdeal
import proofs.«115471_j4492535791994_1_alg».proof.Proof.Gen.ReferenceIdeal.Run
import proofs.«115471_j4492535791994_1_alg».proof.Proof.Gen.ReferenceIdeal.Read
import proofs.«115471_j4492535791994_1_alg».proof.Proof.Gen.Pre_finite_inputs
import proofs.«115471_j4492535791994_1_alg».proof.Proof.K.Run
import proofs.«115471_j4492535791994_1_alg».proof.Proof.KI.Run
import proofs.«115471_j4492535791994_1_alg».proof.Proof.KI.Result
import Idealize.ShloMosaic.Adequacy
import Idealize.ShloMosaic.Init

noncomputable section

namespace Cert.Proof

open Idealize.ShloMosaic Idealize.SL.Sem

/-- The word-level program runs, faults nowhere and leaves its arguments as launched. -/
theorem frame_kernel : Cert.frame_Kernel := fun m ρ _ => Cert.Kernel.HopRun.frame m ρ

/-- So does the program read on the extended reals. -/
theorem frame_kernel_ideal : Cert.frame_KernelIdeal := fun m ρ _ => Cert.KernelIdeal.HopRun.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the reference's result function of the six arguments, which agree. -/
theorem algebraic : Cert.algebraic_KernelIdeal_ReferenceIdeal := by
  intro m ρ m' ρ' _ hagree
  refine ⟨_, Cert.KernelIdeal.HopResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
